-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v48_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v48_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128x1 .f32) (main_arg6 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg5
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x1 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x1 : Shape := ⟨2, ![100000, 1]⟩
abbrev S5000x128 : Shape := ⟨2, ![5000, 128]⟩
abbrev S5000x1 : Shape := ⟨2, ![5000, 1]⟩
abbrev S5000 : Shape := ⟨1, ![5000]⟩
abbrev S1x1 : Shape := ⟨2, ![1, 1]⟩
abbrev S10000x1 : Shape := ⟨2, ![10000, 1]⟩

abbrev nBuf : Space → Nat
  | .hbm => 87
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S1700000x1, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S1x128, .f32⟩
  | .hbm, ⟨68, _⟩ => ⟨S100000x128, .f32⟩
  | .hbm, ⟨69, _⟩ => ⟨S100000x1, .f32⟩
  | .hbm, ⟨70, _⟩ => ⟨S1700000x1, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x1, .f32⟩
  | .hbm, ⟨80, _⟩ => ⟨S1700000x1, .f32⟩
  | .hbm, ⟨81, _⟩ => ⟨S_, .f32⟩
  | .hbm, ⟨82, _⟩ => ⟨S100000x1, .f32⟩
  | .hbm, ⟨83, _⟩ => ⟨S1700000x1, .i32⟩
  | .hbm, ⟨84, _⟩ => ⟨S100000x1, .f32⟩
  | .hbm, ⟨85, _⟩ => ⟨S1x1, .f32⟩
  | .hbm, ⟨86, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S10000x1, .f32⟩
  | .local _ .vmem, ⟨14, _⟩ => ⟨S10000x1, .f32⟩
  | .local _ .vmem, ⟨15, _⟩ => ⟨S1x1, .f32⟩
  | .local _ .vmem, ⟨16, _⟩ => ⟨S10000x1, .f32⟩
  | .local _ .vmem, ⟨17, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48_0 : Ref sig .tc := ⟨.hbm, 68, rfl⟩
abbrev main_v48_1 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S128x1_S1x128 : S128x1.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  bcast_S_S100000x1 : S_.BroadcastsInDim S100000x1 (![] : Fin 0 → Fin S100000x1.rank)
  shapeCasts_S1_S1x1 : S1.ShapeCasts S1x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S100000x1.size a
  hwx1_4 : ∀ i : grid1.Coords, EltTy.bits .f32 = 32 ∨ (Rect.block (s := S100000x1) S5000x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x1.size a ≤ S100000x1.size a
  hwx2_0 : ∀ i : grid2.Coords, EltTy.bits .f32 = 32 ∨ (Rect.block (s := S100000x1) S10000x1.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v48_1) S5000x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v60) S10000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S10000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 153
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x1, .f32⟩
  | 6 => ⟨S1, .f32⟩
  | 7 => ⟨S100000x128, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S100000, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S1700000x1, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x128, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .i1⟩
  | 72 => ⟨S_, .f32⟩
  | 73 => ⟨S100000x128, .f32⟩
  | 74 => ⟨S100000x128, .i1⟩
  | 75 => ⟨S_, .f32⟩
  | 76 => ⟨S_, .f32⟩
  | 77 => ⟨S100000x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S100000x128, .f32⟩
  | 84 => ⟨S100000x1, .f32⟩
  | 85 => ⟨S100000, .i32⟩
  | 86 => ⟨S1x1600000, .i32⟩
  | 87 => ⟨S1600000, .i32⟩
  | 88 => ⟨S1700000, .i32⟩
  | 89 => ⟨S1x1600000, .i32⟩
  | 90 => ⟨S1600000, .i32⟩
  | 91 => ⟨S1700000, .i32⟩
  | 92 => ⟨S_, .f32⟩
  | 93 => ⟨S100000, .f32⟩
  | 94 => ⟨S1700000, .f32⟩
  | 95 => ⟨S_, .f32⟩
  | 96 => ⟨S100000, .f32⟩
  | 97 => ⟨S1700000x1, .i32⟩
  | 98 => ⟨S100000, .f32⟩
  | 99 => ⟨S_, .f32⟩
  | 100 => ⟨S100000, .f32⟩
  | 101 => ⟨S100000, .i1⟩
  | 102 => ⟨S100000, .f32⟩
  | 103 => ⟨S_, .f32⟩
  | 104 => ⟨S_, .f32⟩
  | 105 => ⟨S100000, .f32⟩
  | 106 => ⟨S100000, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000, .f32⟩
  | 116 => ⟨S1700000, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000, .f32⟩
  | 126 => ⟨S1700000, .f32⟩
  | 127 => ⟨S1700000x1, .f32⟩
  | _ => ⟨S100000x128, .f32⟩

abbrev hbmTy0_1 (i : Nat) : BufTy := match i % 128 with
  | 0 => ⟨S_, .i32⟩
  | 1 => ⟨S1700000, .i32⟩
  | 2 => ⟨S1700000, .i1⟩
  | 3 => ⟨S_, .i32⟩
  | 4 => ⟨S1700000, .i32⟩
  | 5 => ⟨S1700000, .i32⟩
  | 6 => ⟨S1700000, .i32⟩
  | 7 => ⟨S1700000x1, .i32⟩
  | 8 => ⟨S1700000x1, .f32⟩
  | 9 => ⟨S1700000x1, .f32⟩
  | 10 => ⟨S_, .f32⟩
  | 11 => ⟨S100000x1, .f32⟩
  | 12 => ⟨S1700000x1, .i32⟩
  | 13 => ⟨S100000x1, .f32⟩
  | 14 => ⟨S1x1, .f32⟩
  | 15 => ⟨S100000x1, .f32⟩
  | 16 => ⟨S100000x1, .f32⟩
  | 17 => ⟨S100000x1, .f32⟩
  | 18 => ⟨S100000x1, .f32⟩
  | 19 => ⟨S_, .f32⟩
  | 20 => ⟨S100000x1, .f32⟩
  | 21 => ⟨S100000x1, .f32⟩
  | 22 => ⟨S_, .f32⟩
  | 23 => ⟨S100000x1, .f32⟩
  | 24 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_cst_0 : Ref sig .tc := ⟨.hbm, 72, rfl⟩
abbrev main_call1_v2 : Ref sig .tc := ⟨.hbm, 73, rfl⟩
abbrev main_call1_v3 : Ref sig .tc := ⟨.hbm, 74, rfl⟩
abbrev main_call1_cst_1 : Ref sig .tc := ⟨.hbm, 75, rfl⟩
abbrev main_call1_call0_v0 : Ref sig .tc := ⟨.hbm, 76, rfl⟩
abbrev main_call1_call0_v1 : Ref sig .tc := ⟨.hbm, 77, rfl⟩
abbrev main_call1_v4 : Ref sig .tc := ⟨.hbm, 78, rfl⟩
abbrev main_call1_v5 : Ref sig .tc := ⟨.hbm, 79, rfl⟩
abbrev main_call1_cst_2 : Ref sig .tc := ⟨.hbm, 80, rfl⟩
abbrev main_call1_v6 : Ref sig .tc := ⟨.hbm, 81, rfl⟩
abbrev main_call1_v7 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_9 : Ref sig .tc := ⟨.hbm, 92, rfl⟩
abbrev main_v58 : Ref sig .tc := ⟨.hbm, 93, rfl⟩
abbrev main_v59 : Ref sig .tc := ⟨.hbm, 94, rfl⟩
abbrev main_cst_10 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_11 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_12 : Ref sig .tc := ⟨.hbm, 103, rfl⟩
abbrev main_call2_v0 : Ref sig .tc := ⟨.hbm, 104, rfl⟩
abbrev main_call2_v1 : Ref sig .tc := ⟨.hbm, 105, rfl⟩
abbrev main_v66 : Ref sig .tc := ⟨.hbm, 106, rfl⟩
abbrev main_c_13 : Ref sig .tc := ⟨.hbm, 107, rfl⟩
abbrev main_v67 : Ref sig .tc := ⟨.hbm, 108, rfl⟩
abbrev main_v68 : Ref sig .tc := ⟨.hbm, 109, rfl⟩
abbrev main_c_14 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_c_15 : Ref sig .tc := ⟨.hbm, 117, rfl⟩
abbrev main_v75 : Ref sig .tc := ⟨.hbm, 118, rfl⟩
abbrev main_v76 : Ref sig .tc := ⟨.hbm, 119, rfl⟩
abbrev main_c_16 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_c_17 : Ref sig .tc := ⟨.hbm, 128, rfl⟩
abbrev main_v84 : Ref sig .tc := ⟨.hbm, 129, rfl⟩
abbrev main_v85 : Ref sig .tc := ⟨.hbm, 130, rfl⟩
abbrev main_c_18 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_19 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_cst_20 : Ref sig .tc := ⟨.hbm, 147, rfl⟩
abbrev main_v100 : Ref sig .tc := ⟨.hbm, 148, rfl⟩
abbrev main_v101 : Ref sig .tc := ⟨.hbm, 149, rfl⟩
abbrev main_cst_21 : Ref sig .tc := ⟨.hbm, 150, rfl⟩
abbrev main_v102 : Ref sig .tc := ⟨.hbm, 151, rfl⟩
abbrev main_v103 : Ref sig .tc := ⟨.hbm, 152, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x1_S100000x1_1_0_0_1_n_n_wf : DotDims.WF S100000x128 S128x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.KRun.lean ====
/-
  The idealized kernel's run with its two results named: every weakly fair execution of @main ends with the output
  array (the third region's result) and the embedding array (the second region's first result) holding what the
  chain of buffer contents through the three regions and the host operations between them leaves there, and the
  seven arguments as launched.
-/
import proofs.«128740_j1786706395262_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the three regions and the host operations around them, read at the two result buffers and the
    arguments: each result holds the last boundary's contents, each argument what it was launched with. -/
theorem run_main : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_v48_0) = W8 m ρ c (Proc.devRef .tc main_v48_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       h c _ (mem_uc main_v48_0 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Gen

end
-- ==== Proof.Spec.lean ====
/-
  The mathematics both programs compute: a two-layer graph convolution with self-loops and symmetric
  normalisation. Every edge k goes from node row k to node col k with weight ew k; a loop of weight one is
  appended at every node. With deg j the sum of the weights of the edges arriving at j and
  dinv j = deg j ^ (-1/2) where deg j > 0 (zero elsewhere), an edge's coefficient is
  norm k = dinv (row k) · ew k · dinv (col k), and one aggregation of node features h is
  (agg h) j = sum over the edges k arriving at j of norm k · h (row k).
  Layer one: emb = elu (agg (x · W1) + b1); layer two: out = sigmoid (agg (emb · W2) + b2).
  The edge bookkeeping (row, col, norm, agg) is written with the library's array operations, once, for both
  programs; the dense parts (the two products, the activations) are written index by index.
-/
import proofs.«128740_j1786706395262_2_alg».proof.Proof.Gen.KernelIdeal
import Idealize.ShloMosaic.PureOps.Ideal
import Idealize.ShloMosaic.Lib.ValueIdx

noncomputable section

open scoped BigOperators

namespace Cert.Gcn

open Idealize.ShloMosaic Idealize.ShloMosaic.ValueIdx Cert.KernelIdeal Cert.KernelIdeal.Facts₀

/-! ## Edges with self-loops, and the symmetric normalisation -/

/-- Source endpoints: row 0 of the edge list, then every node's own id. -/
def rowOf (ei : IVec S2x1600000 32) : IVec S1700000 32 :=
  concatenate S1700000 0
    [⟨S1600000, shapeCast S1600000 (extractStridedSlice S1x1600000 ![0, 0] ei slices_S2x1600000_S1x1600000_0_0) shapeCasts_S1x1600000_S1600000⟩,
     ⟨S100000, iotaInDim S100000 32 0⟩] concatenates_S1600000_S100000_S1700000_d0

/-- Target endpoints: row 1 of the edge list, then every node's own id. -/
def colOf (ei : IVec S2x1600000 32) : IVec S1700000 32 :=
  concatenate S1700000 0
    [⟨S1600000, shapeCast S1600000 (extractStridedSlice S1x1600000 ![1, 0] ei slices_S2x1600000_S1x1600000_1_0) shapeCasts_S1x1600000_S1600000⟩,
     ⟨S100000, iotaInDim S100000 32 0⟩] concatenates_S1600000_S100000_S1700000_d0

/-- The edge weights, then weight one for every self-loop. -/
def ewOf (ew : FVec Ideal S1600000 .f32) : FVec Ideal S1700000 .f32 :=
  concatenate S1700000 0
    [⟨S1600000, ew⟩,
     ⟨S100000, broadcastInDim S100000 ![] bcast_S_S100000 (constant (F := Ideal) S_ .f32 0x3F800000#32)⟩] concatenates_S1600000_S100000_S1700000_d0

/-- A vector of node ids as the one-column index array a gather or scatter takes. -/
def asCol (v : IVec S1700000 32) : IVec S1700000x1 32 :=
  broadcastInDim S1700000x1 ![0] bcast_S1700000_S1700000x1_0 v

/-- Node ids with a negative id counted from the end (id + 100000), as array indexing reads them. -/
def wrap (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- The zero vector over the nodes. -/
def zeroN : FVec Ideal S100000 .f32 :=
  broadcastInDim S100000 ![] bcast_S_S100000 (constant (F := Ideal) S_ .f32 0x00000000#32)

/-- deg j: the sum of the weights of the edges arriving at node j. -/
def degOf (col : IVec S1700000 32) (ewf : FVec Ideal S1700000 .f32) : FVec Ideal S100000 .f32 :=
  Host.scatterAdd scatter_S100000_S1700000x1_S1700000_n_0_0_1 zeroN (asCol col) ewf

/-- dinv j = deg j ^ (-1/2) where deg j > 0, zero elsewhere. -/
def dinvOf (deg : FVec Ideal S100000 .f32) : FVec Ideal S100000 .f32 :=
  select (cmpf .ogt deg zeroN) (Host.rsqrt deg) zeroN

/-- norm k = dinv (row k) · ew k · dinv (col k). -/
def normOf (dinv : FVec Ideal S100000 .f32) (row col : IVec S1700000 32) (ewf : FVec Ideal S1700000 .f32) :
    FVec Ideal S1700000 .f32 :=
  mulf (mulf (Host.gather gather_S100000_S1700000x1_S1700000_n_0_n_n_0_1_1 dinv (asCol (wrap row))) ewf)
    (Host.gather gather_S100000_S1700000x1_S1700000_n_0_n_n_0_1_1 dinv (asCol (wrap col)))

/-- One aggregation of 128-wide node features: (agg h) j = sum over the edges k arriving at j of norm k · h (row k). -/
def agg128Of (nrm : FVec Ideal S1700000 .f32) (row col : IVec S1700000 32) (h : FVec Ideal S100000x128 .f32) :
    FVec Ideal S100000x128 .f32 :=
  Host.scatterAdd scatter_S100000x128_S1700000x1_S1700000x128_1_0_0_1
    (broadcastInDim S100000x128 ![] bcast_S_S100000x128 (constant (F := Ideal) S_ .f32 0x00000000#32)) (asCol col)
    (mulf (broadcastInDim S1700000x128 ![0, 1] bcast_S1700000x1_S1700000x128_0_1
            (broadcastInDim S1700000x1 ![0] bcast_S1700000_S1700000x1_0 nrm))
      (Host.gather gather_S100000x128_S1700000x1_S1700000x128_1_0_n_n_0_1_1128 h (asCol (wrap row))))

/-- The same aggregation of one-wide node features. -/
def agg1Of (nrm : FVec Ideal S1700000 .f32) (row col : IVec S1700000 32) (h : FVec Ideal S100000x1 .f32) :
    FVec Ideal S100000x1 .f32 :=
  Host.scatterAdd scatter_S100000x1_S1700000x1_S1700000x1_1_0_0_1
    (broadcastInDim S100000x1 ![] bcast_S_S100000x1 (constant (F := Ideal) S_ .f32 0x00000000#32)) (asCol col)
    (mulf (broadcastInDim S1700000x1 ![0] bcast_S1700000_S1700000x1_0 nrm)
      (Host.gather gather_S100000x1_S1700000x1_S1700000x1_1_0_n_n_0_1_11 h (asCol (wrap row))))

/-- The edge coefficients from the edge list and the weights. -/
def norm (ei : IVec S2x1600000 32) (ew : FVec Ideal S1600000 .f32) : FVec Ideal S1700000 .f32 :=
  normOf (dinvOf (degOf (colOf ei) (ewOf ew))) (rowOf ei) (colOf ei) (ewOf ew)

/-- The aggregation of 128-wide features over the graph. -/
def agg128 (ei : IVec S2x1600000 32) (ew : FVec Ideal S1600000 .f32) (h : FVec Ideal S100000x128 .f32) :
    FVec Ideal S100000x128 .f32 :=
  agg128Of (norm ei ew) (rowOf ei) (colOf ei) h

/-- The aggregation of one-wide features over the graph. -/
def agg1 (ei : IVec S2x1600000 32) (ew : FVec Ideal S1600000 .f32) (h : FVec Ideal S100000x1 .f32) :
    FVec Ideal S100000x1 .f32 :=
  agg1Of (norm ei ew) (rowOf ei) (colOf ei) h

/-! ## The dense parts, index by index -/

/-- x · W: entry (r, j) is the sum over k of x (r, k) · W (k, j). -/
def lin (x : FVec Ideal S100000x128 .f32) (w : FVec Ideal S128x128 .f32) : FVec Ideal S100000x128 .f32 :=
  fun i => ∑ k : Fin 128, x (ix2 (i 0) k) * w (ix2 k (i 1))

/-- elu v = v for v > 0, e^v - 1 otherwise. -/
def elu (v : EReal) : EReal := Scalar.select (Ideal.cmp .ogt v 0) v (Ideal.exp v - 1)

/-- The logistic function 1 / (1 + e^(-v)). -/
def sigm (v : EReal) : EReal := Ideal.div 1 (1 + Ideal.exp (-v))

/-- elu (a + bias), the bias held as one row. -/
def embRow (a : FVec Ideal S100000x128 .f32) (b : FVec Ideal S1x128 .f32) : FVec Ideal S100000x128 .f32 :=
  fun i => elu (a i + b (ix2 0 (i 1)))

/-- Each row of elu (a + bias) against a weight vector held as one row: entry (r, 0) is the sum over k of
    elu (a (r, k) + b k) · w k. -/
def projRow (a : FVec Ideal S100000x128 .f32) (b w : FVec Ideal S1x128 .f32) : FVec Ideal S100000x1 .f32 :=
  fun i => ∑ k : Fin 128, embRow a b (ix2 (i 0) k) * w (ix2 0 k)

/-- sigmoid (a + bias), the bias one number held as a one-by-one array. -/
def sigRow (a : FVec Ideal S100000x1 .f32) (b : FVec Ideal S1x1 .f32) : FVec Ideal S100000x1 .f32 :=
  fun i => sigm (a i + b (ix2 0 0))

/-- elu (a + bias), the bias a vector. -/
def embOf (a : FVec Ideal S100000x128 .f32) (b : FVec Ideal S128 .f32) : FVec Ideal S100000x128 .f32 :=
  fun i => elu (a i + b (ix1 (i 1)))

/-- e · W2 for a one-column W2: entry (r, 0) is the sum over k of e (r, k) · W2 (k, 0). -/
def projOf (e : FVec Ideal S100000x128 .f32) (w : FVec Ideal S128x1 .f32) : FVec Ideal S100000x1 .f32 :=
  fun i => ∑ k : Fin 128, e (ix2 (i 0) k) * w (ix2 k 0)

/-- sigmoid (a + bias), the bias a one-element vector. -/
def sigOf (a : FVec Ideal S100000x1 .f32) (b : FVec Ideal S1 .f32) : FVec Ideal S100000x1 .f32 :=
  fun i => sigm (a i + b (ix1 0))

/-! ## The two results -/

/-- The embedding: elu (agg (x · W1) + b1). -/
def EMB (x : FVec Ideal S100000x128 .f32) (ei : IVec S2x1600000 32) (ew : FVec Ideal S1600000 .f32)
    (w1 : FVec Ideal S128x128 .f32) (b1 : FVec Ideal S128 .f32) : FVec Ideal S100000x128 .f32 :=
  embOf (agg128 ei ew (lin x w1)) b1

/-- The output: sigmoid (agg (emb · W2) + b2). -/
def OUT (x : FVec Ideal S100000x128 .f32) (ei : IVec S2x1600000 32) (ew : FVec Ideal S1600000 .f32)
    (w1 : FVec Ideal S128x128 .f32) (b1 : FVec Ideal S128 .f32) (w2 : FVec Ideal S128x1 .f32) (b2 : FVec Ideal S1 .f32) :
    FVec Ideal S100000x1 .f32 :=
  sigOf (agg1 ei ew (projOf (EMB x ei ew w1 b1) w2)) b2

/-! ## The two float words the activations meet -/

/-- The word of 0.0 is the real 0. -/
theorem word_zero : Ideal.ofBits .f32 0x00000000#32 = 0 := by simp [Ideal.ofBits, Ideal.ieee]

/-- The word of 1.0 is the real 1. -/
theorem word_one : Ideal.ofBits .f32 0x3F800000#32 = 1 := by
  simp [Ideal.ofBits, Ideal.ieee, -EReal.coe_mul]; norm_num

end Cert.Gcn

end
-- ==== Proof.KHost.lean ====
/-
  The host operations of the idealized kernel, stretch by stretch, read as functions of the buffers each stretch
  starts from: the first three stretches build the edge list with self-loops and the normalisation coefficients,
  the fourth aggregates the first dense layer's result over the graph and lays the bias and the second weight out
  as rows, the fifth aggregates the projected features. A buffer a stretch does not write keeps its contents.
-/
import proofs.«128740_j1786706395262_2_alg».proof.Proof.Gen.KernelIdeal.Launch
import proofs.«128740_j1786706395262_2_alg».proof.Proof.Spec
import Idealize.ShloMosaic.Lib.StableHlo.Run

noncomputable section

namespace Cert.KernelIdeal.HostRead

open Idealize.ShloMosaic Idealize.ShloMosaic.TcCoe Idealize.SL.Sem Idealize.ShloMosaic.StableHlo
open Cert.KernelIdeal Cert.KernelIdeal.Gen Cert.KernelIdeal.Facts₀ Cert.Gcn

/-! ## The first stretch: endpoints, weights, degrees -/

theorem s0_v3 (V : Valuation τ sig (Elt Ideal)) :
    after (hostOps0 (F := Ideal)) V (Proc.devRef .tc main_v3) = rowOf (V (Proc.devRef .tc main_arg1)) := by
  after_results; rfl

theorem s0_v6 (V : Valuation τ sig (Elt Ideal)) :
    after (hostOps0 (F := Ideal)) V (Proc.devRef .tc main_v6) = colOf (V (Proc.devRef .tc main_arg1)) := by
  after_results; rfl

theorem s0_v8 (V : Valuation τ sig (Elt Ideal)) :
    after (hostOps0 (F := Ideal)) V (Proc.devRef .tc main_v8) = ewOf (V (Proc.devRef .tc main_arg2)) := by
  after_results; rfl

theorem s0_v13 (V : Valuation τ sig (Elt Ideal)) :
    after (hostOps0 (F := Ideal)) V (Proc.devRef .tc main_v13) = cmpf .ogt (degOf (colOf (V (Proc.devRef .tc main_arg1))) (ewOf (V (Proc.devRef .tc main_arg2)))) zeroN := by
  after_results; rfl

theorem s0_v14 (V : Valuation τ sig (Elt Ideal)) :
    after (hostOps0 (F := Ideal)) V (Proc.devRef .tc main_v14) = Host.rsqrt (degOf (colOf (V (Proc.devRef .tc main_arg1))) (ewOf (V (Proc.devRef .tc main_arg2)))) := by
  after_results; rfl

theorem s0_cst_2 (V : Valuation τ sig (Elt Ideal)) :
    after (hostOps0 (F := Ideal)) V (Proc.devRef .tc main_cst_2) = constant (F := Ideal) S_ .f32 0x00000000#32 := by
  after_results

theorem s0_arg0 (V : Valuation τ sig (Elt Ideal)) :
    after (hostOps0 (F := Ideal)) V (Proc.devRef .tc main_arg0) = V (Proc.devRef .tc main_arg0) := by
  after_results

theorem s0_arg1 (V : Valuation τ sig (Elt Ideal)) :
    after (hostOps0 (F := Ideal)) V (Proc.devRef .tc main_arg1) = V (Proc.devRef .tc main_arg1) := by
  after_results

theorem s0_arg2 (V : Valuation τ sig (Elt Ideal)) :
    after (hostOps0 (F := Ideal)) V (Proc.devRef .tc main_arg2) = V (Proc.devRef .tc main_arg2) := by
  after_results

theorem s0_arg3 (V : Valuation τ sig (Elt Ideal)) :
    after (hostOps0 (F := Ideal)) V (Proc.devRef .tc main_arg3) = V (Proc.devRef .tc main_arg3) := by
  after_results

theorem s0_arg4 (V : Valuation τ sig (Elt Ideal)) :
    after (hostOps0 (F := Ideal)) V (Proc.devRef .tc main_arg4) = V (Proc.devRef .tc main_arg4) := by
  after_results

theorem s0_arg5 (V : Valuation τ sig (Elt Ideal)) :
    after (hostOps0 (F := Ideal)) V (Proc.devRef .tc main_arg5) = V (Proc.devRef .tc main_arg5) := by
  after_results

theorem s0_arg6 (V : Valuation τ sig (Elt Ideal)) :
    after (hostOps0 (F := Ideal)) V (Proc.devRef .tc main_arg6) = V (Proc.devRef .tc main_arg6) := by
  after_results

/-! ## The second stretch: the inverse square roots of the positive degrees -/

theorem s1_v15 (V : Valuation τ sig (Elt Ideal)) :
    after (hostOps0_1 (F := Ideal)) V (Proc.devRef .tc main_v15) = select (V (Proc.devRef .tc main_v13)) (V (Proc.devRef .tc main_v14)) (broadcastInDim S100000 ![] Facts₀.bcast_S_S100000 (V (Proc.devRef .tc main_cst_2))) := by
  after_results; rfl

theorem s1_v3 (V : Valuation τ sig (Elt Ideal)) :
    after (hostOps0_1 (F := Ideal)) V (Proc.devRef .tc main_v3) = V (Proc.devRef .tc main_v3) := by
  after_results

theorem s1_v6 (V : Valuation τ sig (Elt Ideal)) :
    after (hostOps0_1 (F := Ideal)) V (Proc.devRef .tc main_v6) = V (Proc.devRef .tc main_v6) := by
  after_results

theorem s1_v8 (V : Valuation τ sig (Elt Ideal)) :
    after (hostOps0_1 (F := Ideal)) V (Proc.devRef .tc main_v8) = V (Proc.devRef .tc main_v8) := by
  after_results

theorem s1_arg0 (V : Valuation τ sig (Elt Ideal)) :
    after (hostOps0_1 (F := Ideal)) V (Proc.devRef .tc main_arg0) = V (Proc.devRef .tc main_arg0) := by
  after_results

theorem s1_arg1 (V : Valuation τ sig (Elt Ideal)) :
    after (hostOps0_1 (F := Ideal)) V (Proc.devRef .tc main_arg1) = V (Proc.devRef .tc main_arg1) := by
  after_results

theorem s1_arg2 (V : Valuation τ sig (Elt Ideal)) :
    after (hostOps0_1 (F := Ideal)) V (Proc.devRef .tc main_arg2) = V (Proc.devRef .tc main_arg2) := by
  after_results

theorem s1_arg3 (V : Valuation τ sig (Elt Ideal)) :
    after (hostOps0_1 (F := Ideal)) V (Proc.devRef .tc main_arg3) = V (Proc.devRef .tc main_arg3) := by
  after_results

theorem s1_arg4 (V : Valuation τ sig (Elt Ideal)) :
    after (hostOps0_1 (F := Ideal)) V (Proc.devRef .tc main_arg4) = V (Proc.devRef .tc main_arg4) := by
  after_results

theorem s1_arg5 (V : Valuation τ sig (Elt Ideal)) :
    after (hostOps0_1 (F := Ideal)) V (Proc.devRef .tc main_arg5) = V (Proc.devRef .tc main_arg5) := by
  after_results

theorem s1_arg6 (V : Valuation τ sig (Elt Ideal)) :
    after (hostOps0_1 (F := Ideal)) V (Proc.devRef .tc main_arg6) = V (Proc.devRef .tc main_arg6) := by
  after_results

/-! ## The third stretch: the edge coefficients -/

set_option maxHeartbeats 2000000 in
theorem s2_v31 (V : Valuation τ sig (Elt Ideal)) :
    after (hostOps0_2 (F := Ideal)) V (Proc.devRef .tc main_v31) = normOf (V (Proc.devRef .tc main_v15)) (V (Proc.devRef .tc main_v3)) (V (Proc.devRef .tc main_v6)) (V (Proc.devRef .tc main_v8)) := by
  after_results_simp; rfl

theorem s2_v3 (V : Valuation τ sig (Elt Ideal)) :
    after (hostOps0_2 (F := Ideal)) V (Proc.devRef .tc main_v3) = V (Proc.devRef .tc main_v3) := by
  after_results

theorem s2_v6 (V : Valuation τ sig (Elt Ideal)) :
    after (hostOps0_2 (F := Ideal)) V (Proc.devRef .tc main_v6) = V (Proc.devRef .tc main_v6) := by
  after_results

theorem s2_arg0 (V : Valuation τ sig (Elt Ideal)) :
    after (hostOps0_2 (F := Ideal)) V (Proc.devRef .tc main_arg0) = V (Proc.devRef .tc main_arg0) := by
  after_results

theorem s2_arg1 (V : Valuation τ sig (Elt Ideal)) :
    after (hostOps0_2 (F := Ideal)) V (Proc.devRef .tc main_arg1) = V (Proc.devRef .tc main_arg1) := by
  after_results

theorem s2_arg2 (V : Valuation τ sig (Elt Ideal)) :
    after (hostOps0_2 (F := Ideal)) V (Proc.devRef .tc main_arg2) = V (Proc.devRef .tc main_arg2) := by
  after_results

theorem s2_arg3 (V : Valuation τ sig (Elt Ideal)) :
    after (hostOps0_2 (F := Ideal)) V (Proc.devRef .tc main_arg3) = V (Proc.devRef .tc main_arg3) := by
  after_results

theorem s2_arg4 (V : Valuation τ sig (Elt Ideal)) :
    after (hostOps0_2 (F := Ideal)) V (Proc.devRef .tc main_arg4) = V (Proc.devRef .tc main_arg4) := by
  after_results

theorem s2_arg5 (V : Valuation τ sig (Elt Ideal)) :
    after (hostOps0_2 (F := Ideal)) V (Proc.devRef .tc main_arg5) = V (Proc.devRef .tc main_arg5) := by
  after_results

theorem s2_arg6 (V : Valuation τ sig (Elt Ideal)) :
    after (hostOps0_2 (F := Ideal)) V (Proc.devRef .tc main_arg6) = V (Proc.devRef .tc main_arg6) := by
  after_results

/-! ## The fourth stretch: the first aggregation, the bias and the second weight as rows -/

set_option maxHeartbeats 2000000 in
theorem s3_v45 (V : Valuation τ sig (Elt Ideal)) :
    after (hostOps1 (F := Ideal)) V (Proc.devRef .tc main_v45) = agg128Of (V (Proc.devRef .tc main_v31)) (V (Proc.devRef .tc main_v3)) (V (Proc.devRef .tc main_v6)) (V (Proc.devRef .tc main_v32)) := by
  after_results_simp; rfl

theorem s3_v46 (V : Valuation τ sig (Elt Ideal)) :
    after (hostOps1 (F := Ideal)) V (Proc.devRef .tc main_v46) = shapeCast S1x128 (V (Proc.devRef .tc main_arg4)) Facts₀.shapeCasts_S128_S1x128 := by
  after_results; rfl

theorem s3_v47 (V : Valuation τ sig (Elt Ideal)) :
    after (hostOps1 (F := Ideal)) V (Proc.devRef .tc main_v47) = shapeCast S1x128 (V (Proc.devRef .tc main_arg5)) Facts₀.shapeCasts_S128x1_S1x128 := by
  after_results; rfl

theorem s3_v31 (V : Valuation τ sig (Elt Ideal)) :
    after (hostOps1 (F := Ideal)) V (Proc.devRef .tc main_v31) = V (Proc.devRef .tc main_v31) := by
  after_results

theorem s3_v3 (V : Valuation τ sig (Elt Ideal)) :
    after (hostOps1 (F := Ideal)) V (Proc.devRef .tc main_v3) = V (Proc.devRef .tc main_v3) := by
  after_results

theorem s3_v6 (V : Valuation τ sig (Elt Ideal)) :
    after (hostOps1 (F := Ideal)) V (Proc.devRef .tc main_v6) = V (Proc.devRef .tc main_v6) := by
  after_results

theorem s3_arg6 (V : Valuation τ sig (Elt Ideal)) :
    after (hostOps1 (F := Ideal)) V (Proc.devRef .tc main_arg6) = V (Proc.devRef .tc main_arg6) := by
  after_results

/-! ## The fifth stretch: the second aggregation, the last bias as a one-by-one array -/

set_option maxHeartbeats 2000000 in
theorem s4_v60 (V : Valuation τ sig (Elt Ideal)) :
    after (hostOps2 (F := Ideal)) V (Proc.devRef .tc main_v60) = agg1Of (V (Proc.devRef .tc main_v31)) (V (Proc.devRef .tc main_v3)) (V (Proc.devRef .tc main_v6)) (V (Proc.devRef .tc main_v48_1)) := by
  after_results_simp; rfl

theorem s4_v61 (V : Valuation τ sig (Elt Ideal)) :
    after (hostOps2 (F := Ideal)) V (Proc.devRef .tc main_v61) = shapeCast S1x1 (V (Proc.devRef .tc main_arg6)) Facts₀.shapeCasts_S1_S1x1 := by
  after_results; rfl

theorem s4_v48_0 (V : Valuation τ sig (Elt Ideal)) :
    after (hostOps2 (F := Ideal)) V (Proc.devRef .tc main_v48_0) = V (Proc.devRef .tc main_v48_0) := by
  after_results

end Cert.KernelIdeal.HostRead

end
-- ==== Proof.KRegion0.lean ====
/-
  The first dense product of the network, read off the tiled kernel: the node features x (100000 rows of 128)
  times the 128-by-128 weight W.  The kernel walks ten blocks of 10000 rows.  At block t it multiplies rows
  10000 t … 10000 t + 9999 of x by the whole of W, adds the product to a zero accumulator, and writes the result
  as the same rows of the output.  Entry (p, q) of the block product is the sum over k of x (10000 t + p, k) · W (k, q),
  which is entry (10000 t + p, q) of x · W; the ten blocks tile the 100000 rows, so the output array is x · W.
  Rounding the factors to a narrower format on the way into the product changes nothing at the extended reals.
-/
import proofs.«128740_j1786706395262_2_alg».proof.Proof.Gen.KernelIdeal.Frame
import proofs.«128740_j1786706395262_2_alg».proof.Proof.Spec
import Idealize.ShloMosaic.Lib.Pipeline.Value
import Idealize.ShloMosaic.PureOps.Ideal.Laws
import Idealize.ShloMosaic.Lib.ValueIdx

set_option maxRecDepth 16384

noncomputable section

open scoped BigOperators

namespace Cert.KernelIdeal.Region0

open Idealize.ShloMosaic Idealize.ShloMosaic.TcCoe Idealize.SL.Sem Cert.KernelIdeal Cert.KernelIdeal.Gen
open Idealize.ShloMosaic.ValueIdx
open Idealize.ShloMosaic.Pipeline (Dat)

/-! ## The product's index maps, coordinate by coordinate

The product contracts the second axis of the left factor with the first axis of the right factor.  At output
index (r, c) and contraction position k the left factor is read at (r, k) and the right factor at (k, c). -/

/-- The left factor's row is the output's row. -/
theorem lhs_row (i : S10000x128.Idx) (q : (dot_S10000x128_S128x128_S10000x128_1_0_0_1_n_n).contr.Idx) :
    ((dot_S10000x128_S128x128_S10000x128_1_0_0_1_n_n).lhsIdx i q 0).val = (i 0).val := by
  unfold DotDims.lhsIdx
  rw [dif_neg (show ¬(0 : Fin S10000x128.rank) ∈ (dot_S10000x128_S128x128_S10000x128_1_0_0_1_n_n).lhsBatch by decide),
    dif_pos (show (0 : Fin S10000x128.rank) ∈ (dot_S10000x128_S128x128_S10000x128_1_0_0_1_n_n).lhsNonContracting by decide)]
  rfl

/-- The left factor's column is the contraction position. -/
theorem lhs_col (i : S10000x128.Idx) (q : (dot_S10000x128_S128x128_S10000x128_1_0_0_1_n_n).contr.Idx) :
    ((dot_S10000x128_S128x128_S10000x128_1_0_0_1_n_n).lhsIdx i q 1).val = (q ⟨0, by decide⟩).val :=
  (dot_S10000x128_S128x128_S10000x128_1_0_0_1_n_n).lhsIdx_val_of_single rfl i q

/-- The right factor's row is the contraction position. -/
theorem rhs_row (i : S10000x128.Idx) (q : (dot_S10000x128_S128x128_S10000x128_1_0_0_1_n_n).contr.Idx) :
    ((dot_S10000x128_S128x128_S10000x128_1_0_0_1_n_n).rhsIdx i q 0).val = (q ⟨0, by decide⟩).val :=
  (dot_S10000x128_S128x128_S10000x128_1_0_0_1_n_n).rhsIdx_val_of_single rfl i q

/-- The right factor's column is the output's column. -/
theorem rhs_col (i : S10000x128.Idx) (q : (dot_S10000x128_S128x128_S10000x128_1_0_0_1_n_n).contr.Idx) :
    ((dot_S10000x128_S128x128_S10000x128_1_0_0_1_n_n).rhsIdx i q 1).val = (i 1).val := by
  unfold DotDims.rhsIdx
  rw [dif_neg (show ¬(1 : Fin S128x128.rank) ∈ (dot_S10000x128_S128x128_S10000x128_1_0_0_1_n_n).rhsBatch by decide),
    dif_pos (show (1 : Fin S128x128.rank) ∈ (dot_S10000x128_S128x128_S10000x128_1_0_0_1_n_n).rhsNonContracting by decide)]
  rfl

/-! ## One block's product, entry by entry -/

/-- Entry (p, q) of what the body stores: the sum over k of the row block's (p, k) times the weight's (k, q).
    The change of format before the product is the identity, the accumulator is zero, and the sum over the
    one-axis contraction index is the sum over its coordinate. -/
theorem pay_apply (x0 : Vec Ideal S10000x128 .f32) (x1 : Vec Ideal S128x128 .f32) (p : Fin 10000) (q : Fin 128) :
    k0_pay1 x0 x1 (ix2 p q) = ∑ k : Fin 128, x0 (ix2 p k) * x1 (ix2 k q) := by
  unfold k0_pay1
  refine (Ideal.matmul_constant_zero_apply dot_S10000x128_S128x128_S10000x128_1_0_0_1_n_n none (truncf .bf16 x0 bitsLt_bf16_f32) (truncf .bf16 x1 bitsLt_bf16_f32) (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : (dot_S10000x128_S128x128_S10000x128_1_0_0_1_n_n).lhsIdx (ix2 p q) ((contrEquiv1 dot_S10000x128_S128x128_S10000x128_1_0_0_1_n_n 128 rfl rfl).symm k) = ix2 p k :=
    funext fun a => Fin.ext (by
      match a with
      | ⟨0, _⟩ => exact lhs_row _ _
      | ⟨1, _⟩ => exact (lhs_col _ _).trans hk)
  have er : (dot_S10000x128_S128x128_S10000x128_1_0_0_1_n_n).rhsIdx (ix2 p q) ((contrEquiv1 dot_S10000x128_S128x128_S10000x128_1_0_0_1_n_n 128 rfl rfl).symm k) = ix2 k q :=
    funext fun a => Fin.ext (by
      match a with
      | ⟨0, _⟩ => exact (rhs_row _ _).trans hk
      | ⟨1, _⟩ => exact rhs_col _ _)
  show x0 _ * x1 _ = _
  rw [el, er]

/-- The same at any index of the block, named by its two coordinates. -/
theorem pay_at (x0 : Vec Ideal S10000x128 .f32) (x1 : Vec Ideal S128x128 .f32) (j : S10000x128.Idx) :
    k0_pay1 x0 x1 j = ∑ k : Fin 128, x0 (ix2 (j 0) k) * x1 (ix2 k (j 1)) := by
  obtain ⟨p, q, rfl⟩ : ∃ (p : Fin 10000) (q : Fin 128), j = ix2 p q := ⟨j 0, j 1, eq_ix2 j⟩
  exact pay_apply x0 x1 p q

/-- A product of one entry of each factor, the two entries read at equal indices. -/
theorem term_eq (X : FVec Ideal S100000x128 .f32) (W : FVec Ideal S128x128 .f32)
    (a a' : S100000x128.Idx) (b b' : S128x128.Idx) (ha : a = a') (hb : b = b') : X a * W b = X a' * W b' := by
  rw [ha, hb]

/-! ## From the ten blocks to the array -/

variable (V : (c : Dev nD) → (b : Ref sig .tc) → Buf (Elt Ideal) ((c : Thread nD τ).loc b))

/-- The body reads and writes each block from its corner. -/
theorem corner_zero : (![0, 0] : Fin 2 → Nat) = fun _ => 0 := funext fun a => by fin_cases a <;> rfl

/-- Where the three blocks sit at grid point t: the row block of x sits where the output's row block sits, both
    span all 128 columns, there are ten row blocks, and the weight is always its one whole block. -/
theorem block_positions : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every one of the ten row blocks of the output is some grid point's. -/
theorem row_block_onto : ∀ (q0 : Fin 10), ∃ t : Fin cfg0.N, win0_2.index t = ![q0.val, 0] :=
  (by decide +kernel : ∀ (q0 : Fin 10), ∃ t : Fin grid0.N, win0_2.index t = ![q0.val, 0])

/-- What grid point t writes back is block t of x · W: entry (p, q) of the block is the sum over k of
    x (10000 t + p, k) · W (k, q), since a block's coordinate is its block index times the block's extent plus the
    coordinate inside the block. -/
theorem flushed_eq (c : Dev nD) (t : Fin cfg0.N) :
    (dat0 (F := Ideal) V c).flushed 2 t
      = ((cfg0.win 2).blk t).view.read (Elt Ideal) (Cert.Gcn.lin (V c main_arg0) (V c main_arg3)) := by
  show (cfg0.win 2).cut (grid0.coords t) ((dat0 (F := Ideal) V c).after 2 t) = _
  rw [after0_2]
  unfold out0_2
  rw [View.canon_unit_zero corner_zero]
  simp only [View.ld_unit_zero (S := S10000x128) corner_zero, View.ld_unit_zero (S := S128x128) corner_zero]
  obtain ⟨e0, e1, e2, e3, e4, e5⟩ := block_positions t
  funext j
  show k0_pay1 (iblk0 V c 0 t) (iblk0 V c 1 t) j
      = Cert.Gcn.lin (V c main_arg0) (V c main_arg3) (((cfg0.win 2).blk t).view.emb j)
  refine (pay_at (iblk0 V c 0 t) (iblk0 V c 1 t) j).trans ?_
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact term_eq (V c main_arg0) (V c main_arg3) _ _ _ _ h0 h1

/-- An index of the output is in point t's block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- The ten blocks cover the output: row r lies in row block r / 10000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := row_block_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array after the ten write-backs is x · W of the two arrays as the region finds them. -/
theorem arr (c : Dev nD) :
    (Gen.dat0 (F := Ideal) V c).arrAt 2 cfg0.N = Cert.Gcn.lin (V c main_arg0) (V c main_arg3) :=
  (dat0 (F := Ideal) V c).arrAt_eq_of_cover 2 (Cert.Gcn.lin (V c main_arg0) (V c main_arg3)) (fun t _ => flushed_eq V c t) cover

end Cert.KernelIdeal.Region0

end
-- ==== Proof.LibSliceSum.lean ====
/-
  Three more layout and reduction steps read at an index written by coordinates, for any extents:
  one column cut out of a matrix, one row cut out of a matrix, and the sum over the columns of each
  row (the vector unit's add-reduction over axis 1) at the ideal values.
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.LibSliceSum

open Idealize.ShloMosaic Idealize.ShloMosaic.ValueIdx

variable {α : Type}

/-- Column c of a matrix, cut out as a one-column matrix: entry (p, 0) is entry (p, c). -/
theorem colSlice_apply {a b : Nat} (c : Nat) (hc : c < b) (x : (⟨2, ![a, b]⟩ : Shape).Idx → α)
    (h : (⟨2, ![a, b]⟩ : Shape).Slices ![0, c] ⟨2, ![a, 1]⟩) (p : Fin a) :
    extractStridedSlice ⟨2, ![a, 1]⟩ ![0, c] x h (ix2 p (0 : Fin 1)) = x (ix2 p (⟨c, hc⟩ : Fin b)) :=
  extractStridedSlice_apply ![0, c] x h (ix2 p (0 : Fin 1)) (ix2 p (⟨c, hc⟩ : Fin b)) (fun d => match d with
    | ⟨0, _⟩ => by show p.val = 0 + p.val; omega
    | ⟨1, _⟩ => by show c = c + 0; omega)

/-- Row r of a matrix, cut out as a one-row matrix: entry (0, q) is entry (r, q). -/
theorem rowSlice_apply {a b : Nat} (r : Nat) (hr : r < a) (x : (⟨2, ![a, b]⟩ : Shape).Idx → α)
    (h : (⟨2, ![a, b]⟩ : Shape).Slices ![r, 0] ⟨2, ![1, b]⟩) (q : Fin b) :
    extractStridedSlice ⟨2, ![1, b]⟩ ![r, 0] x h (ix2 (0 : Fin 1) q) = x (ix2 (⟨r, hr⟩ : Fin a) q) :=
  extractStridedSlice_apply ![r, 0] x h (ix2 (0 : Fin 1) q) (ix2 (⟨r, hr⟩ : Fin a) q) (fun d => match d with
    | ⟨0, _⟩ => by show r = r + 0; omega
    | ⟨1, _⟩ => by show q.val = 0 + q.val; omega)

/-- Row p of a matrix with column k put back is (p, k). -/
theorem lift_cols {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The vector unit's sum over the columns of each row, at row p: the sum of that row's entries. -/
theorem rowSum_apply {a b : Nat} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ k : Fin b, src (ix2 p k) := by
  rw [Ideal.multiReduction_add_single]
  have hf : (fun k => src (h.lift (ix1 p) k)) = fun k : Fin b => src (ix2 p k) :=
    funext fun k => congrArg src (lift_cols h p k)
  exact congrArg (fun f => ∑ k : Fin b, f k) hf

/-- The same sum, with the accumulator the zero word and the side facts spelt as a printed program
    spells them. -/
theorem rowSum_zero_apply {a b : Nat} (src : FVec Ideal ⟨2, ![a, b]⟩ .f32)
    (h : (⟨2, ![a, b]⟩ : Shape).Reduces [1] (⟨1, ![a]⟩ : Shape)) (hφ : FTy.f32 = FTy.f32 ∨ FTy.f32 = FTy.bf16)
    (hacc : (0x00000000#32 : BitVec 32) = 0x00000000#32) (p : Fin a) :
    multiReduction .add [1] ⟨1, ![a]⟩ src 0x00000000#32 h hφ hacc (ix1 p) = ∑ k : Fin b, src (ix2 p k) :=
  rowSum_apply src _ h hφ hacc p

/-- The vector unit's maximum over the columns of each row started from the word of −∞, at row p:
    the fold of `max` from that word's value over the row's entries. -/
theorem rowMax_negInf_apply {a b : Nat} (src : FVec Ideal ⟨2, ![a, b]⟩ .f32)
    (h : (⟨2, ![a, b]⟩ : Shape).Reduces [1] (⟨1, ![a]⟩ : Shape)) (hφ : FTy.f32 = FTy.f32 ∨ FTy.f32 = FTy.bf16)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  have hf : (src ∘ h.lift (ix1 p)) = fun k : Fin b => src (ix2 p k) :=
    funext fun k => congrArg src (lift_cols h p k)
  exact congrArg (fun f => Finset.fold max (Ideal.ofBits .f32 0xFF800000#32) f (Finset.univ : Finset (Fin b))) hf

end Cert.LibSliceSum

end
-- ==== Proof.LibColumnCasts.lean ====
/-
  Three shape casts around a unit axis, each read at an index written by coordinates, for any extents and any
  element type. A shape cast keeps the row-major position; a unit axis contributes nothing to it.

    cast_dropSecond   [a, 1, b, c] → [a, b, c]   reads (p, q, r)  at (p, 0, q, r)
    cast_column       [a]          → [a, 1]      reads (p, u)     at p            (a sum kept as a column)
    cast_uncolumn     [a, 1]       → [a]         reads p          at (p, 0)       (a column read as a vector)
-/
import Idealize.ShloMosaic.Lib.Pipeline.Value
import Idealize.ShloMosaic.Lib.ValueIdx

namespace Cert.LibColumnCasts

open Idealize.ShloMosaic Idealize.ShloMosaic.ValueIdx

variable {α : Type}

/-- A cast that drops a unit axis in second place, `[a,1,b,c]` to `[a,b,c]`, reads `(p,q,r)` at `(p,0,q,r)`. -/
theorem cast_dropSecond {a b c : ℕ} (x : (⟨4, ![a, 1, b, c]⟩ : Shape).Idx → α)
    (h : (⟨4, ![a, 1, b, c]⟩ : Shape).ShapeCasts ⟨3, ![a, b, c]⟩) (p : Fin a) (q : Fin b) (r : Fin c) :
    shapeCast ⟨3, ![a, b, c]⟩ x h (ix3 p q r) = x (ix4 p (0 : Fin 1) q r) :=
  shapeCast_apply x h _ _ (by
    rw [Shape.rowMajor_val_four, Shape.rowMajor_val_three]
    show ((p.val * 1 + 0) * b + q.val) * c + r.val = (p.val * b + q.val) * c + r.val
    rw [Nat.mul_one, Nat.add_zero])

/-- A vector written as one column, `[a]` to `[a,1]`, reads `(p,u)` at `p`, whatever the unit coordinate `u`. -/
theorem cast_column {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A one-column array read as a vector, `[a,1]` to `[a]`, reads `p` at `(p,0)`. -/
theorem cast_uncolumn {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

end Cert.LibColumnCasts
-- ==== Proof.KRegion1.lean ====
/-
  Region 1 of the kernel, read as mathematics. At every grid point the body takes a block of 5000 rows of the
  aggregated features, adds the bias row to each row and applies elu; that block is written to the embedding's
  array. The same block is multiplied entry by entry with a weight row, each row is summed, and the sums are
  written as a one-column block of the projection's array. Here: each stored block at an index, each written-back
  block as the matching block of one whole-array function, the twenty blocks cover each array, so each array
  ends holding that function.
-/
import proofs.«128740_j1786706395262_2_alg».proof.Proof.Gen.KernelIdeal.Frame
import proofs.«128740_j1786706395262_2_alg».proof.Proof.Spec
import proofs.«128740_j1786706395262_2_alg».proof.Proof.LibSliceSum
import proofs.«128740_j1786706395262_2_alg».proof.Proof.LibColumnCasts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Idealize.ShloMosaic Idealize.ShloMosaic.TcCoe Idealize.ShloMosaic.ValueIdx Idealize.SL.Sem Cert.KernelIdeal Cert.KernelIdeal.Gen
open Idealize.ShloMosaic.Pipeline (Dat)

/-- The zero offsets of a whole-buffer load or store, as a function. -/
theorem hz : (![0, 0] : Fin 2 → Nat) = fun _ => 0 := funext fun a => by fin_cases a <;> rfl

/-- The first payload at an index: elu of the feature plus the bias of its column. -/
theorem pay1_apply (x0 : Vec Ideal S5000x128 .f32) (x1 : Vec Ideal S1x128 .f32) (p : Fin 5000) (q : Fin 128) :
    k1_pay1 x0 x1 (ix2 p q) = Cert.Gcn.elu (x0 (ix2 p q) + x1 (ix2 0 q)) := by
  unfold k1_pay1
  simp only [shapeCast_self]
  show Scalar.select (Ideal.cmp .ogt (x0 (ix2 p q) + broadcastTo S5000x128 x1 _ (ix2 p q)) (Ideal.ofBits .f32 0x00000000#32))
      (x0 (ix2 p q) + broadcastTo S5000x128 x1 _ (ix2 p q))
      (Ideal.exp (x0 (ix2 p q) + broadcastTo S5000x128 x1 _ (ix2 p q)) - Ideal.ofBits .f32 0x3F800000#32) = _
  rw [broadcastTo_1b_ab_apply, Cert.Gcn.word_zero, Cert.Gcn.word_one]
  rfl

/-- The printed index maps, decided over the grid: the feature blocks and both output blocks move down the rows with the
    point, the two one-row windows stay put. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-! ## The embedding's array -/

/-- elu (features + bias) read where a block's element sits in the array. -/
theorem embRow_at (a : FVec Ideal S100000x128 .f32) (b : FVec Ideal S1x128 .f32) (i0 i : S100000x128.Idx) (k : S1x128.Idx)
    (h0 : i0 = i) (h1 : k = ix2 0 (i 1)) : Cert.Gcn.elu (a i0 + b k) = Cert.Gcn.embRow a b i := by
  subst h0 h1; rfl

/-- What a point writes back to the embedding's array is its block of elu (features + bias). -/
theorem flushed3_eq (V : (c : Dev nD) → (b : Ref sig .tc) → Buf (Elt Ideal) ((c : Thread nD τ).loc b)) (c : Dev nD) (t : Fin cfg1.N) :
    (dat1 (F := Ideal) V c).flushed 3 t
      = ((cfg1.win 3).blk t).view.read (Elt Ideal) (Cert.Gcn.embRow (V c main_v45) (V c main_v46)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz]
  obtain ⟨e00, e01, e10, e11, e20, e21, e30, e31, e40, e41⟩ := idx_facts t
  funext j
  show k1_pay1 (iblk1 V c 0 t) (iblk1 V c 1 t) j
      = Cert.Gcn.embRow (V c main_v45) (V c main_v46) (((cfg1.win 3).blk t).view.emb j)
  have hj0 : (j 0).val < 5000 := (j 0).isLt
  have hj1 : (j 1).val < 128 := (j 1).isLt
  have h0 : ((cfg1.win 0).blk t).view.emb (ix2 (j 0) (j 1)) = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb (ix2 0 (j 1)) = ix2 0 ((((cfg1.win 3).blk t).view.emb j) 1) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_3.index t (1 : Fin 2) * 128 + 1 * (j 1).val; omega
  refine (congrArg (k1_pay1 (iblk1 V c 0 t) (iblk1 V c 1 t)) (eq_ix2 j)).trans ?_
  refine (pay1_apply _ _ (j 0) (j 1)).trans ?_
  exact embRow_at (V c main_v45) (V c main_v46) (((cfg1.win 0).blk t).view.emb (ix2 (j 0) (j 1))) _
    (((cfg1.win 1).blk t).view.emb (ix2 0 (j 1))) h0 h1

/-- An index of the embedding's array is in a point's block iff each coordinate is in the block's range on its axis. -/
theorem mem_blk3 (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v48_0).slice (win1_3.rect t)).set ↔ _
  rw [View.set_slice_whole, Rect.mem_set_unit]
  exact Iff.rfl

/-- The embedding's array after the region: elu (features + bias) at every index; row r is covered by the point r / 5000. -/
theorem arr_emb (V : (c : Dev nD) → (b : Ref sig .tc) → Buf (Elt Ideal) ((c : Thread nD τ).loc b)) (c : Dev nD) :
    (Gen.dat1 (F := Ideal) V c).arrAt 3 cfg1.N = Cert.Gcn.embRow (V c main_v45) (V c main_v46) :=
  (dat1 (F := Ideal) V c).arrAt_eq_of_cover 3 _ (fun t _ => flushed3_eq V c t) fun i => by
    have hi0 : (i 0).val < 100000 := (i 0).isLt
    have hi1 : (i 1).val < 128 := (i 1).isLt
    have hlt : (i 0).val / 5000 < cfg1.N := by rw [show cfg1.N = 20 from N_1]; omega
    obtain ⟨e00, e01, e10, e11, e20, e21, e30, e31, e40, e41⟩ := idx_facts ⟨(i 0).val / 5000, hlt⟩
    refine ⟨⟨(i 0).val / 5000, hlt⟩, flush1_3 _, ?_⟩
    rw [mem_blk3]
    intro a
    match a with
    | ⟨0, _⟩ =>
      show win1_3.index ⟨(i 0).val / 5000, hlt⟩ (0 : Fin 2) * 5000 ≤ (i 0).val
        ∧ (i 0).val < win1_3.index ⟨(i 0).val / 5000, hlt⟩ (0 : Fin 2) * 5000 + 5000
      rw [e30]; show (i 0).val / 5000 * 5000 ≤ (i 0).val ∧ (i 0).val < (i 0).val / 5000 * 5000 + 5000; omega
    | ⟨1, _⟩ =>
      show win1_3.index ⟨(i 0).val / 5000, hlt⟩ (1 : Fin 2) * 128 ≤ (i 1).val
        ∧ (i 1).val < win1_3.index ⟨(i 0).val / 5000, hlt⟩ (1 : Fin 2) * 128 + 128
      rw [e31]; omega

/-! ## The projection's array -/

/-- The second payload at an index: the row's elu values against the weight row, summed. -/
theorem pay2_apply (x0 : Vec Ideal S5000x128 .f32) (x1 x2 : Vec Ideal S1x128 .f32) (p : Fin 5000) (u : Fin 1) :
    k1_pay2 x0 x1 x2 (ix2 p u)
      = ∑ k : Fin 128, Cert.Gcn.elu (x0 (ix2 p k) + x1 (ix2 0 k)) * x2 (ix2 0 k) := by
  unfold k1_pay2
  simp only [shapeCast_self]
  refine (Cert.LibColumnCasts.cast_column _ _ p u).trans ?_
  refine (Cert.LibSliceSum.rowSum_zero_apply _ _ _ _ p).trans ?_
  refine Finset.sum_congr rfl fun k _ => ?_
  show k1_pay1 x0 x1 (ix2 p k) * broadcastTo S5000x128 x2 _ (ix2 p k) = _
  rw [pay1_apply, broadcastTo_1b_ab_apply]

/-- Each row of elu (features + bias) against the weight row, read where a block's element sits in the array. -/
theorem projRow_at (a : FVec Ideal S100000x128 .f32) (b w : FVec Ideal S1x128 .f32) (i : S100000x1.Idx)
    (f : Fin 128 → S100000x128.Idx) (g h : Fin 128 → S1x128.Idx)
    (hf : ∀ k, f k = ix2 (i 0) k) (hg : ∀ k, g k = ix2 0 k) (hh : ∀ k, h k = ix2 0 k) :
    ∑ k : Fin 128, Cert.Gcn.elu (a (f k) + b (g k)) * w (h k) = Cert.Gcn.projRow a b w i := by
  refine Finset.sum_congr rfl fun k _ => ?_
  rw [hf, hg, hh]
  rfl

/-- What a point writes back to the projection's array is its block of the row sums. -/
theorem flushed4_eq (V : (c : Dev nD) → (b : Ref sig .tc) → Buf (Elt Ideal) ((c : Thread nD τ).loc b)) (c : Dev nD) (t : Fin cfg1.N) :
    (dat1 (F := Ideal) V c).flushed 4 t
      = ((cfg1.win 4).blk t).view.read (Elt Ideal) (Cert.Gcn.projRow (V c main_v45) (V c main_v46) (V c main_v47)) := by
  show (cfg1.win 4).cut (grid1.coords t) ((dat1 V c).after 4 t) = _
  rw [after1_4]
  unfold out1_4
  rw [View.canon_unit_zero hz]
  simp only [View.ld_unit_zero (S := S5000x128) hz, View.ld_unit_zero (S := S1x128) hz]
  obtain ⟨e00, e01, e10, e11, e20, e21, e30, e31, e40, e41⟩ := idx_facts t
  funext j
  show k1_pay2 (iblk1 V c 0 t) (iblk1 V c 1 t) (iblk1 V c 2 t) j
      = Cert.Gcn.projRow (V c main_v45) (V c main_v46) (V c main_v47) (((cfg1.win 4).blk t).view.emb j)
  have hj0 : (j 0).val < 5000 := (j 0).isLt
  have hf : ∀ k : Fin 128, ((cfg1.win 0).blk t).view.emb (ix2 (j 0) k) = ix2 ((((cfg1.win 4).blk t).view.emb j) 0) k := by
    intro k; funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * k.val = k.val; omega
  have hg : ∀ k : Fin 128, ((cfg1.win 1).blk t).view.emb (ix2 0 k) = ix2 0 k := by
    intro k; funext a; apply Fin.ext
    match a with
    | ⟨0, _⟩ => show win1_1.index t (0 : Fin 2) * 1 + 1 * 0 = 0; omega
    | ⟨1, _⟩ => show win1_1.index t (1 : Fin 2) * 128 + 1 * k.val = k.val; omega
  have hh : ∀ k : Fin 128, ((cfg1.win 2).blk t).view.emb (ix2 0 k) = ix2 0 k := by
    intro k; funext a; apply Fin.ext
    match a with
    | ⟨0, _⟩ => show win1_2.index t (0 : Fin 2) * 1 + 1 * 0 = 0; omega
    | ⟨1, _⟩ => show win1_2.index t (1 : Fin 2) * 128 + 1 * k.val = k.val; omega
  refine (congrArg (k1_pay2 (iblk1 V c 0 t) (iblk1 V c 1 t) (iblk1 V c 2 t)) (eq_ix2 j)).trans ?_
  refine (pay2_apply _ _ _ (j 0) (j 1)).trans ?_
  exact projRow_at (V c main_v45) (V c main_v46) (V c main_v47) _
    (fun k => ((cfg1.win 0).blk t).view.emb (ix2 (j 0) k)) (fun k => ((cfg1.win 1).blk t).view.emb (ix2 0 k))
    (fun k => ((cfg1.win 2).blk t).view.emb (ix2 0 k)) hf hg hh

/-- An index of the projection's array is in a point's block iff each coordinate is in the block's range on its axis. -/
theorem mem_blk4 (t : Fin cfg1.N) (i : S100000x1.Idx) :
    i ∈ ((cfg1.win 4).blk t).view.set ↔ ∀ a : Fin 2, win1_4.index t a * S5000x1.size a ≤ (i a).val
      ∧ (i a).val < win1_4.index t a * S5000x1.size a + S5000x1.size a := by
  show i ∈ ((View.whole main_v48_1).slice (win1_4.rect t)).set ↔ _
  rw [View.set_slice_whole, Rect.mem_set_unit]
  exact Iff.rfl

/-- The projection's array after the region: at row r the sum over k of elu (features + bias) (r, k) times the weight k;
    row r is covered by the point r / 5000. -/
theorem arr_proj (V : (c : Dev nD) → (b : Ref sig .tc) → Buf (Elt Ideal) ((c : Thread nD τ).loc b)) (c : Dev nD) :
    (Gen.dat1 (F := Ideal) V c).arrAt 4 cfg1.N = Cert.Gcn.projRow (V c main_v45) (V c main_v46) (V c main_v47) :=
  (dat1 (F := Ideal) V c).arrAt_eq_of_cover 4 _ (fun t _ => flushed4_eq V c t) fun i => by
    have hi0 : (i 0).val < 100000 := (i 0).isLt
    have hi1 : (i 1).val < 1 := (i 1).isLt
    have hlt : (i 0).val / 5000 < cfg1.N := by rw [show cfg1.N = 20 from N_1]; omega
    obtain ⟨e00, e01, e10, e11, e20, e21, e30, e31, e40, e41⟩ := idx_facts ⟨(i 0).val / 5000, hlt⟩
    refine ⟨⟨(i 0).val / 5000, hlt⟩, flush1_4 _, ?_⟩
    rw [mem_blk4]
    intro a
    match a with
    | ⟨0, _⟩ =>
      show win1_4.index ⟨(i 0).val / 5000, hlt⟩ (0 : Fin 2) * 5000 ≤ (i 0).val
        ∧ (i 0).val < win1_4.index ⟨(i 0).val / 5000, hlt⟩ (0 : Fin 2) * 5000 + 5000
      rw [e40]; show (i 0).val / 5000 * 5000 ≤ (i 0).val ∧ (i 0).val < (i 0).val / 5000 * 5000 + 5000; omega
    | ⟨1, _⟩ =>
      show win1_4.index ⟨(i 0).val / 5000, hlt⟩ (1 : Fin 2) * 1 ≤ (i 1).val
        ∧ (i 1).val < win1_4.index ⟨(i 0).val / 5000, hlt⟩ (1 : Fin 2) * 1 + 1
      rw [e41]; omega

end Cert.KernelIdeal.Region1

end
-- ==== Proof.KRegion2.lean ====
/-
  Region 2: the bias and the logistic function, block by block.
  The grid has ten points. Point t takes rows 10000·t … 10000·t + 9999 of the aggregated logits (a block of shape
  [10000, 1]), adds the one bias number (held as a one-by-one array, the same at every point) down the rows, applies
  v ↦ 1 / (1 + exp (0 − v)), and writes the result back as rows 10000·t … 10000·t + 9999 of the output. The ten
  blocks tile the 100000 rows, so the output array ends as the logistic function of (logit + bias), row by row.
-/
import proofs.«128740_j1786706395262_2_alg».proof.Proof.Gen.KernelIdeal.Frame
import proofs.«128740_j1786706395262_2_alg».proof.Proof.Spec
import Idealize.ShloMosaic.Lib.Pipeline.Value
import Idealize.ShloMosaic.Lib.ValueIdx

noncomputable section

namespace Cert.KernelIdeal.Region2

open Idealize.ShloMosaic Idealize.ShloMosaic.TcCoe Idealize.SL.Sem Cert.KernelIdeal Cert.KernelIdeal.Gen
open Idealize.ShloMosaic.Pipeline (Dat)
open Idealize.ShloMosaic.ValueIdx

/-! ## The body at one entry of a block -/

/-- The store and the loads of the body start at the origin of their buffers. -/
theorem origin : (![0, 0] : Fin 2 → Nat) = fun _ => 0 := funext fun a => by fin_cases a <;> rfl

/-- The one-by-one bias broadcast down the 10000 rows reads, at every (p, q), its only entry. -/
theorem bias_apply (x1 : Vec Ideal S1x1 .f32) (p : Fin 10000) (q : Fin 1) :
    broadcastTo S10000x1 (shapeCast S1x1 x1 shapeCasts_S1x1_S1x1) broadcasts_S1x1_S10000x1 (ix2 p q)
      = x1 (ix2 (0 : Fin 1) (0 : Fin 1)) := by
  rw [shapeCast_self]
  exact broadcastTo_apply x1 broadcasts_S1x1_S10000x1 (ix2 p q) (ix2 (0 : Fin 1) (0 : Fin 1))
    (fun a => by fin_cases a <;> rfl)

/-- The stored value at (p, q): 1 / (1 + exp (0 − (x0 (p, q) + bias))), which is the logistic function of
    x0 (p, q) + bias, since the words of 0.0 and 1.0 are the reals 0 and 1 and 0 − v = −v. -/
theorem stored_apply (x0 : Vec Ideal S10000x1 .f32) (x1 : Vec Ideal S1x1 .f32) (p : Fin 10000) (q : Fin 1) :
    k2_pay1 x0 x1 (ix2 p q) = Cert.Gcn.sigm (x0 (ix2 p q) + x1 (ix2 (0 : Fin 1) (0 : Fin 1))) := by
  show Ideal.div (Ideal.ofBits .f32 0x3F800000#32)
      (Ideal.ofBits .f32 0x3F800000#32 + Ideal.exp (Ideal.ofBits .f32 0x00000000#32
        - (shapeCast S10000x1 x0 shapeCasts_S10000x1_S10000x1 (ix2 p q)
            + broadcastTo S10000x1 (shapeCast S1x1 x1 shapeCasts_S1x1_S1x1) broadcasts_S1x1_S10000x1 (ix2 p q)))) = _
  rw [bias_apply, shapeCast_self, Cert.Gcn.word_zero, Cert.Gcn.word_one, zero_sub]
  rfl

/-- The logistic function of (A i + B k) is the row form's entry at i' when i = i' and k is the bias's only index. -/
theorem sigm_eq_sigRow (A : FVec Ideal S100000x1 .f32) (B : FVec Ideal S1x1 .f32) (i i' : S100000x1.Idx) (k : S1x1.Idx)
    (hi : i = i') (hk : k = ix2 (0 : Fin 1) (0 : Fin 1)) :
    Cert.Gcn.sigm (A i + B k) = Cert.Gcn.sigRow A B i' := by
  subst hi hk; rfl

/-! ## The index maps over the grid -/

/-- The printed index maps, decided once over the ten grid points: the logits' block moves with the output's block
    (block row t, block column 0), and the bias's block is always block (0, 0). -/
theorem index_maps : ∀ t : Fin cfg2.N, win2_0.index t (0 : Fin 2) = win2_2.index t (0 : Fin 2)
    ∧ win2_0.index t (1 : Fin 2) = 0 ∧ win2_2.index t (1 : Fin 2) = 0
    ∧ win2_1.index t (0 : Fin 2) = 0 ∧ win2_1.index t (1 : Fin 2) = 0
    ∧ win2_2.index t (0 : Fin 2) = t.val :=
  (by decide +kernel : ∀ t : Fin grid2.N, _)

/-! ## What one grid point writes back -/

/-- What point t writes back is block t of the logistic function of (logits + bias) of the arrays as the region finds
    them: the body stores one whole block; at entry j of it the logits' block is read at j, which sits in the logits
    array where entry j of the output's block sits in the output array (a block's coordinate is block index × block
    size + the coordinate inside the block, and the two block indices agree), and the bias is read at (0, 0). -/
theorem written_back (V : (c : Dev nD) → (b : Ref sig .tc) → Buf (Elt Ideal) ((c : Thread nD τ).loc b)) (c : Dev nD)
    (t : Fin cfg2.N) :
    (Gen.dat2 (F := Ideal) V c).flushed 2 t
      = ((cfg2.win 2).blk t).view.read (Elt Ideal) (Cert.Gcn.sigRow (V c main_v60) (V c main_v61)) := by
  show (cfg2.win 2).cut (grid2.coords t) ((dat2 V c).after 2 t) = _
  rw [after2_2]
  unfold out2_2
  rw [View.canon_unit_zero origin]
  simp only [View.ld_unit_zero (S := S10000x1) origin, View.ld_unit_zero (S := S1x1) origin]
  obtain ⟨e0, e1, e2, e3, e4, e5⟩ := index_maps t
  funext j
  have h0 : ((cfg2.win 0).blk t).view.emb (ix2 (j 0) (j 1)) = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 1 + 1 * (j 1).val = win2_2.index t (1 : Fin 2) * 1 + 1 * (j 1).val; omega
  have h1 : ((cfg2.win 1).blk t).view.emb (ix2 (0 : Fin 1) (0 : Fin 1)) = ix2 (0 : Fin 1) (0 : Fin 1) := by
    funext a; apply Fin.ext
    match a with
    | ⟨0, _⟩ => show win2_1.index t (0 : Fin 2) * 1 + 1 * 0 = 0; omega
    | ⟨1, _⟩ => show win2_1.index t (1 : Fin 2) * 1 + 1 * 0 = 0; omega
  show k2_pay1 (iblk2 V c 0 t) (iblk2 V c 1 t) j
      = Cert.Gcn.sigRow (V c main_v60) (V c main_v61) (((cfg2.win 2).blk t).view.emb j)
  refine ((congrArg (k2_pay1 (iblk2 V c 0 t) (iblk2 V c 1 t)) (eq_ix2 j)).trans
    (stored_apply (iblk2 V c 0 t) (iblk2 V c 1 t) (j 0) (j 1))).trans ?_
  exact sigm_eq_sigRow (V c main_v60) (V c main_v61) _ _ _ h0 h1

/-! ## The ten blocks tile the output -/

/-- An index of the output array is in point t's block iff each coordinate is in the block's range on its axis. -/
theorem mem_block (t : Fin cfg2.N) (i : S100000x1.Idx) :
    i ∈ ((cfg2.win 2).blk t).view.set ↔ ∀ a : Fin 2, win2_2.index t a * S10000x1.size a ≤ (i a).val ∧ (i a).val < win2_2.index t a * S10000x1.size a + S10000x1.size a := by
  show i ∈ ((View.whole main_v62).slice (win2_2.rect t)).set ↔ _
  rw [View.set_slice_whole, Rect.mem_set_unit]
  exact Iff.rfl

/-- Row r of the output is in the block of point r / 10000 (r < 100000, so r / 10000 < 10), and every point writes
    its block back. -/
theorem rows_covered (i : S100000x1.Idx) :
    ∃ t : Fin cfg2.N, (cfg2.win 2).flush t = true ∧ i ∈ ((cfg2.win 2).blk t).view.set := by
  have hi0 : (i 0).val < 100000 := (i 0).isLt
  have hi1 : (i 1).val < 1 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨e0, e1, e2, e3, e4, e5⟩ := index_maps t
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 1 ≤ (i 1).val ∧ (i 1).val < win2_2.index t (1 : Fin 2) * 1 + 1; omega

/-! ## The output array after the region -/

/-- After the ten points the output array is the logistic function of (logits + bias), row by row: every point writes
    back its block of that array, and the blocks cover every row. -/
theorem arr_sig (V : (c : Dev nD) → (b : Ref sig .tc) → Buf (Elt Ideal) ((c : Thread nD τ).loc b)) (c : Dev nD) :
    (Gen.dat2 (F := Ideal) V c).arrAt 2 cfg2.N = Cert.Gcn.sigRow (V c main_v60) (V c main_v61) :=
  (dat2 V c).arrAt_eq_of_cover 2 _ (fun t _ => written_back V c t) rows_covered

end Cert.KernelIdeal.Region2

end
-- ==== Proof.KLayout.lean ====
/-
  The kernel holds its two biases and its second weight as one-row arrays, reshapes of the arguments. A reshape
  keeps every entry's row-major position, so a vector laid out as one row reads, at (0, j), its entry j, and a
  column laid out as one row reads, at (0, k), its entry (k, 0). Hence the row forms of the dense parts are the
  vector forms.
-/
import proofs.«128740_j1786706395262_2_alg».proof.Proof.Spec
import Idealize.ShloMosaic.Lib.ValueLayout
import Idealize.ShloMosaic.Lib.Pipeline.Value
import Idealize.ShloMosaic.Lib.ValueIdx

noncomputable section

open scoped BigOperators

namespace Cert.Gcn

open Idealize.ShloMosaic Idealize.ShloMosaic.ValueIdx Cert.KernelIdeal Cert.KernelIdeal.Facts₀

/-- A column [a, 1] laid out as one row [1, a] reads, at (0, k), the column's entry (k, 0): both sit at row-major
    position k. -/
theorem shapeCast_col_row_apply {α : Type} {a : ℕ} (x : (⟨2, ![a, 1]⟩ : Shape).Idx → α)
    (h : (⟨2, ![a, 1]⟩ : Shape).ShapeCasts ⟨2, ![1, a]⟩) (u : Fin 1) (k : Fin a) :
    shapeCast ⟨2, ![1, a]⟩ x h (ix2 u k) = x (ix2 k (0 : Fin 1)) :=
  shapeCast_apply x h _ _ (by
    have hu : u.val = 0 := by omega
    rw [Shape.rowMajor_val_two, Shape.rowMajor_val_two]
    show k.val * 1 + 0 = u.val * a + k.val
    rw [hu, Nat.zero_mul, Nat.zero_add, Nat.mul_one, Nat.add_zero])

/-- elu (a + bias) with the bias vector laid out as one row is elu (a + bias) with the bias vector. -/
theorem embRow_cast (a : FVec Ideal S100000x128 .f32) (b1 : FVec Ideal S128 .f32) :
    embRow a (shapeCast S1x128 b1 shapeCasts_S128_S1x128) = embOf a b1 := by
  funext i
  exact congrArg (fun v => elu (a i + v)) (shapeCast_a_1a_apply b1 shapeCasts_S128_S1x128 (0 : Fin 1) (i 1))

/-- The projection with bias and weight both laid out as one row is the projection of the embedding against the
    weight column: the row reads, at (0, k), the column's entry (k, 0). -/
theorem projRow_cast (a : FVec Ideal S100000x128 .f32) (b1 : FVec Ideal S128 .f32) (w2 : FVec Ideal S128x1 .f32) :
    projRow a (shapeCast S1x128 b1 shapeCasts_S128_S1x128) (shapeCast S1x128 w2 shapeCasts_S128x1_S1x128)
      = projOf (embOf a b1) w2 := by
  funext i
  show (∑ k : Fin 128, embRow a (shapeCast S1x128 b1 shapeCasts_S128_S1x128) (ix2 (i 0) k)
          * shapeCast S1x128 w2 shapeCasts_S128x1_S1x128 (ix2 (0 : Fin 1) k))
      = ∑ k : Fin 128, embOf a b1 (ix2 (i 0) k) * w2 (ix2 k (0 : Fin 1))
  rw [embRow_cast]
  refine Finset.sum_congr rfl fun k _ => ?_
  exact congrArg (fun v => embOf a b1 (ix2 (i 0) k) * v)
    (shapeCast_col_row_apply w2 shapeCasts_S128x1_S1x128 (0 : Fin 1) k)

/-- sigmoid (a + bias) with the one-element bias laid out as a one-by-one array is sigmoid (a + bias). -/
theorem sigRow_cast (a : FVec Ideal S100000x1 .f32) (b2 : FVec Ideal S1 .f32) :
    sigRow a (shapeCast S1x1 b2 shapeCasts_S1_S1x1) = sigOf a b2 := by
  funext i
  exact congrArg (fun v => sigm (a i + v)) (shapeCast_a_1a_apply b2 shapeCasts_S1_S1x1 (0 : Fin 1) (0 : Fin 1))

end Cert.Gcn

end
-- ==== Proof.KValue.lean ====
/-
  The idealized kernel's two results as functions of its arguments. Walking the chain of buffer contents: the first
  three host stretches leave the endpoints with self-loops and the edge coefficients; the first region leaves x · W1;
  the fourth stretch aggregates it over the graph and lays b1 and W2 out as rows; the second region leaves
  elu (agg + b1) — the embedding — and its product with W2; the fifth stretch aggregates that product; the third
  region leaves sigmoid (agg + b2) — the output. A buffer no later step writes keeps its contents to the end.
-/
import proofs.«128740_j1786706395262_2_alg».proof.Proof.KRun
import proofs.«128740_j1786706395262_2_alg».proof.Proof.KHost
import proofs.«128740_j1786706395262_2_alg».proof.Proof.KRegion0
import proofs.«128740_j1786706395262_2_alg».proof.Proof.KRegion1
import proofs.«128740_j1786706395262_2_alg».proof.Proof.KRegion2
import proofs.«128740_j1786706395262_2_alg».proof.Proof.KLayout

noncomputable section

namespace Cert.KernelIdeal.Value

open Idealize.ShloMosaic Idealize.ShloMosaic.TcCoe Idealize.SL.Sem Idealize.ShloMosaic.StableHlo
open Cert.KernelIdeal Cert.KernelIdeal.Gen Cert.KernelIdeal.HostRead Cert.Gcn

/-! ## The three stretches before the first region, from any contents -/

section Pre
variable (V : Valuation τ sig (Elt Ideal))

/-- The contents after the first three host stretches. -/
abbrev P3 : Valuation τ sig (Elt Ideal) :=
  after (hostOps0_2 (F := Ideal)) (after (hostOps0_1 (F := Ideal)) (after (hostOps0 (F := Ideal)) V))

theorem pre_v3 : P3 V (Proc.devRef .tc main_v3) = rowOf (V (Proc.devRef .tc main_arg1)) := by
  unfold P3
  rw [s2_v3, s1_v3, s0_v3]
theorem pre_v6 : P3 V (Proc.devRef .tc main_v6) = colOf (V (Proc.devRef .tc main_arg1)) := by
  unfold P3
  rw [s2_v6, s1_v6, s0_v6]
theorem pre_v31 : P3 V (Proc.devRef .tc main_v31) = norm (V (Proc.devRef .tc main_arg1)) (V (Proc.devRef .tc main_arg2)) := by
  unfold P3
  rw [s2_v31, s1_v15, s1_v3, s1_v6, s1_v8, s0_v13, s0_v14, s0_cst_2, s0_v3, s0_v6, s0_v8]
  rfl
theorem pre_arg0 : P3 V (Proc.devRef .tc main_arg0) = V (Proc.devRef .tc main_arg0) := by
  unfold P3
  rw [s2_arg0, s1_arg0, s0_arg0]
theorem pre_arg3 : P3 V (Proc.devRef .tc main_arg3) = V (Proc.devRef .tc main_arg3) := by
  unfold P3
  rw [s2_arg3, s1_arg3, s0_arg3]
theorem pre_arg4 : P3 V (Proc.devRef .tc main_arg4) = V (Proc.devRef .tc main_arg4) := by
  unfold P3
  rw [s2_arg4, s1_arg4, s0_arg4]
theorem pre_arg5 : P3 V (Proc.devRef .tc main_arg5) = V (Proc.devRef .tc main_arg5) := by
  unfold P3
  rw [s2_arg5, s1_arg5, s0_arg5]
theorem pre_arg6 : P3 V (Proc.devRef .tc main_arg6) = V (Proc.devRef .tc main_arg6) := by
  unfold P3
  rw [s2_arg6, s1_arg6, s0_arg6]

end Pre

/-! ## The chain through the regions -/

variable (m : (ℓ : Loc nD τ sig) → Buf (Elt Ideal) ℓ) (ρ : Dev nD → PrngReg) (c : Dev nD)

/-- The first region leaves x · W1 in its output array. -/
theorem W4_v32 : W4 m ρ c (Proc.devRef .tc main_v32) = lin (m ((c.tc : Thread nD τ).loc main_arg0)) (m ((c.tc : Thread nD τ).loc main_arg3)) := by
  refine (W4_arr m ρ c 2).trans ((Region0.arr (V3 m ρ) c).trans ?_)
  exact congrArg₂ lin (pre_arg0 (W0 m ρ c)) (pre_arg3 (W0 m ρ c))

theorem W4_v31 : W4 m ρ c (Proc.devRef .tc main_v31) = norm (m ((c.tc : Thread nD τ).loc main_arg1)) (m ((c.tc : Thread nD τ).loc main_arg2)) :=
  (W4_of_ne m ρ c main_v31 (by decide)).trans (pre_v31 (W0 m ρ c))
theorem W4_v3 : W4 m ρ c (Proc.devRef .tc main_v3) = rowOf (m ((c.tc : Thread nD τ).loc main_arg1)) :=
  (W4_of_ne m ρ c main_v3 (by decide)).trans (pre_v3 (W0 m ρ c))
theorem W4_v6 : W4 m ρ c (Proc.devRef .tc main_v6) = colOf (m ((c.tc : Thread nD τ).loc main_arg1)) :=
  (W4_of_ne m ρ c main_v6 (by decide)).trans (pre_v6 (W0 m ρ c))
theorem W4_arg4 : W4 m ρ c (Proc.devRef .tc main_arg4) = (m ((c.tc : Thread nD τ).loc main_arg4)) :=
  (W4_of_ne m ρ c main_arg4 (by decide)).trans (pre_arg4 (W0 m ρ c))
theorem W4_arg5 : W4 m ρ c (Proc.devRef .tc main_arg5) = (m ((c.tc : Thread nD τ).loc main_arg5)) :=
  (W4_of_ne m ρ c main_arg5 (by decide)).trans (pre_arg5 (W0 m ρ c))
theorem W4_arg6 : W4 m ρ c (Proc.devRef .tc main_arg6) = (m ((c.tc : Thread nD τ).loc main_arg6)) :=
  (W4_of_ne m ρ c main_arg6 (by decide)).trans (pre_arg6 (W0 m ρ c))

/-- The fourth stretch aggregates x · W1 over the graph. -/
theorem W5_v45 : W5 m ρ c (Proc.devRef .tc main_v45) = agg128 (m ((c.tc : Thread nD τ).loc main_arg1)) (m ((c.tc : Thread nD τ).loc main_arg2)) (lin (m ((c.tc : Thread nD τ).loc main_arg0)) (m ((c.tc : Thread nD τ).loc main_arg3))) := by
  refine (s3_v45 (W4 m ρ c)).trans ?_
  rw [W4_v31, W4_v3, W4_v6, W4_v32]
  rfl
theorem W5_v46 : W5 m ρ c (Proc.devRef .tc main_v46) = shapeCast S1x128 (m ((c.tc : Thread nD τ).loc main_arg4)) Facts₀.shapeCasts_S128_S1x128 := by
  refine (s3_v46 (W4 m ρ c)).trans ?_
  rw [W4_arg4]
theorem W5_v47 : W5 m ρ c (Proc.devRef .tc main_v47) = shapeCast S1x128 (m ((c.tc : Thread nD τ).loc main_arg5)) Facts₀.shapeCasts_S128x1_S1x128 := by
  refine (s3_v47 (W4 m ρ c)).trans ?_
  rw [W4_arg5]
theorem W5_v31 : W5 m ρ c (Proc.devRef .tc main_v31) = norm (m ((c.tc : Thread nD τ).loc main_arg1)) (m ((c.tc : Thread nD τ).loc main_arg2)) :=
  (s3_v31 (W4 m ρ c)).trans (W4_v31 m ρ c)
theorem W5_v3 : W5 m ρ c (Proc.devRef .tc main_v3) = rowOf (m ((c.tc : Thread nD τ).loc main_arg1)) :=
  (s3_v3 (W4 m ρ c)).trans (W4_v3 m ρ c)
theorem W5_v6 : W5 m ρ c (Proc.devRef .tc main_v6) = colOf (m ((c.tc : Thread nD τ).loc main_arg1)) :=
  (s3_v6 (W4 m ρ c)).trans (W4_v6 m ρ c)
theorem W5_arg6 : W5 m ρ c (Proc.devRef .tc main_arg6) = (m ((c.tc : Thread nD τ).loc main_arg6)) :=
  (s3_arg6 (W4 m ρ c)).trans (W4_arg6 m ρ c)

/-- The second region leaves the embedding in its first output array … -/
theorem W6_v48_0 : W6 m ρ c (Proc.devRef .tc main_v48_0) = EMB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W6_arr m ρ c 3).trans ((Region1.arr_emb (V5 m ρ) c).trans ?_)
  show embRow (W5 m ρ c (Proc.devRef .tc main_v45)) (W5 m ρ c (Proc.devRef .tc main_v46)) = _
  rw [W5_v45, W5_v46, embRow_cast]
  rfl
/-- … and the embedding times W2 in its second. -/
theorem W6_v48_1 : W6 m ρ c (Proc.devRef .tc main_v48_1) = projOf (EMB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) := by
  refine (W6_arr m ρ c 4).trans ((Region1.arr_proj (V5 m ρ) c).trans ?_)
  show projRow (W5 m ρ c (Proc.devRef .tc main_v45)) (W5 m ρ c (Proc.devRef .tc main_v46)) (W5 m ρ c (Proc.devRef .tc main_v47)) = _
  rw [W5_v45, W5_v46, W5_v47, projRow_cast]
  rfl
theorem W6_v31 : W6 m ρ c (Proc.devRef .tc main_v31) = norm (m ((c.tc : Thread nD τ).loc main_arg1)) (m ((c.tc : Thread nD τ).loc main_arg2)) :=
  (W6_of_ne m ρ c main_v31 (by decide)).trans (W5_v31 m ρ c)
theorem W6_v3 : W6 m ρ c (Proc.devRef .tc main_v3) = rowOf (m ((c.tc : Thread nD τ).loc main_arg1)) :=
  (W6_of_ne m ρ c main_v3 (by decide)).trans (W5_v3 m ρ c)
theorem W6_v6 : W6 m ρ c (Proc.devRef .tc main_v6) = colOf (m ((c.tc : Thread nD τ).loc main_arg1)) :=
  (W6_of_ne m ρ c main_v6 (by decide)).trans (W5_v6 m ρ c)
theorem W6_arg6 : W6 m ρ c (Proc.devRef .tc main_arg6) = (m ((c.tc : Thread nD τ).loc main_arg6)) :=
  (W6_of_ne m ρ c main_arg6 (by decide)).trans (W5_arg6 m ρ c)

/-- The fifth stretch aggregates the projected features. -/
theorem W7_v60 : W7 m ρ c (Proc.devRef .tc main_v60)
    = agg1 (m ((c.tc : Thread nD τ).loc main_arg1)) (m ((c.tc : Thread nD τ).loc main_arg2)) (projOf (EMB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5))) := by
  refine (s4_v60 (W6 m ρ c)).trans ?_
  rw [W6_v31, W6_v3, W6_v6, W6_v48_1]
  rfl
theorem W7_v61 : W7 m ρ c (Proc.devRef .tc main_v61) = shapeCast S1x1 (m ((c.tc : Thread nD τ).loc main_arg6)) Facts₀.shapeCasts_S1_S1x1 := by
  refine (s4_v61 (W6 m ρ c)).trans ?_
  rw [W6_arg6]
theorem W7_v48_0 : W7 m ρ c (Proc.devRef .tc main_v48_0) = EMB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (s4_v48_0 (W6 m ρ c)).trans (W6_v48_0 m ρ c)

/-! ## The two results -/

/-- The output array ends at sigmoid (agg (emb · W2) + b2). -/
theorem out_eq : W8 m ρ c (Proc.devRef .tc main_v62)
    = OUT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W8_arr m ρ c 2).trans ((Region2.arr_sig (V7 m ρ) c).trans ?_)
  show sigRow (W7 m ρ c (Proc.devRef .tc main_v60)) (W7 m ρ c (Proc.devRef .tc main_v61)) = _
  rw [W7_v60, W7_v61, sigRow_cast]
  rfl

/-- The embedding array ends at elu (agg (x · W1) + b1). -/
theorem emb_eq : W8 m ρ c (Proc.devRef .tc main_v48_0) = EMB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W8_of_ne m ρ c main_v48_0 (by decide)).trans (W7_v48_0 m ρ c)

end Cert.KernelIdeal.Value

end
-- ==== Proof.ROps0.lean ====
/- The reference program's @main, statements 1 to 60 (its first printed window), as the list of the host operations it runs in order; the call of `_where` is written as the callee's three operations over the call's own buffers. -/
import proofs.«128740_j1786706395262_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The window's 62 operations, in order. -/
abbrev ops0 : List (HloOp τ sig (Elt F)) :=
  [ StableHlo.binary main_arg0 main_arg3 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_v1 (iotaInDim S100000 32 0),
    StableHlo.unary main_arg1 main_v2 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_v3 main_v1 main_v4 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v5 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v5 main_v6 rfl shapeCasts_S1x1600000_S1600000,
    StableHlo.binary main_v6 main_v1 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v8 (broadcastInDim S100000 ![] bcast_S_S100000 : (⟨S_, .f32⟩ : BufTy).Contents (Elt F) → (⟨S100000, .f32⟩ : BufTy).Contents (Elt F)),
    StableHlo.binary main_arg2 main_v8 main_v9 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    StableHlo.nullary main_cst_0 (constant S_ .f32 0x00000000#32),
    StableHlo.unary main_cst_0 main_v10 (broadcastInDim S100000 ![] bcast_S_S100000 : (⟨S_, .f32⟩ : BufTy).Contents (Elt F) → (⟨S100000, .f32⟩ : BufTy).Contents (Elt F)),
    StableHlo.unary main_v7 main_v11 (broadcastInDim S1700000x1 ![0] bcast_S1700000_S1700000x1_0 : (⟨S1700000, .i32⟩ : BufTy).Contents (Elt F) → (⟨S1700000x1, .i32⟩ : BufTy).Contents (Elt F)),
    StableHlo.ternary main_v10 main_v11 main_v9 main_v12 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v13 (broadcastInDim S100000 ![] bcast_S_S100000 : (⟨S_, .f32⟩ : BufTy).Contents (Elt F) → (⟨S100000, .f32⟩ : BufTy).Contents (Elt F)),
    StableHlo.binary main_v12 main_v13 main_v14 (cmpf .ogt : (⟨S100000, .f32⟩ : BufTy).Contents (Elt F) → (⟨S100000, .f32⟩ : BufTy).Contents (Elt F) → (⟨S100000, .i1⟩ : BufTy).Contents (Elt F)),
    StableHlo.unary main_v12 main_v15 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2) main_call0.v0 id,
    StableHlo.TRef.unary main_call0.v0 main_call0.v1 (broadcastInDim S100000 ![] bcast_S_S100000),
    StableHlo.TRef.ternary (.of main_v14) (.of main_v15) main_call0.v1 main_call0.v2 select,
    StableHlo.nullary main_c (constantI S_ 32 0#32),
    StableHlo.unary main_c main_v17 (broadcastInDim S1700000 ![] bcast_S_S1700000 : (⟨S_, .i32⟩ : BufTy).Contents (Elt F) → (⟨S1700000, .i32⟩ : BufTy).Contents (Elt F)),
    StableHlo.binary main_v4 main_v17 main_v18 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v19 (broadcastInDim S1700000 ![] bcast_S_S1700000 : (⟨S_, .i32⟩ : BufTy).Contents (Elt F) → (⟨S1700000, .i32⟩ : BufTy).Contents (Elt F)),
    StableHlo.binary main_v4 main_v19 main_v20 (addi : (⟨S1700000, .i32⟩ : BufTy).Contents (Elt F) → (⟨S1700000, .i32⟩ : BufTy).Contents (Elt F) → (⟨S1700000, .i32⟩ : BufTy).Contents (Elt F)),
    StableHlo.ternary main_v18 main_v20 main_v4 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v21 main_v22 (broadcastInDim S1700000x1 ![0] bcast_S1700000_S1700000x1_0 : (⟨S1700000, .i32⟩ : BufTy).Contents (Elt F) → (⟨S1700000x1, .i32⟩ : BufTy).Contents (Elt F)),
    StableHlo.binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v23 main_v9 main_v24 (mulf : (⟨S1700000, .f32⟩ : BufTy).Contents (Elt F) → (⟨S1700000, .f32⟩ : BufTy).Contents (Elt F) → (⟨S1700000, .f32⟩ : BufTy).Contents (Elt F)),
    StableHlo.nullary main_c_4 (constantI S_ 32 0#32),
    StableHlo.unary main_c_4 main_v25 (broadcastInDim S1700000 ![] bcast_S_S1700000 : (⟨S_, .i32⟩ : BufTy).Contents (Elt F) → (⟨S1700000, .i32⟩ : BufTy).Contents (Elt F)),
    StableHlo.binary main_v7 main_v25 main_v26 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v27 (broadcastInDim S1700000 ![] bcast_S_S1700000 : (⟨S_, .i32⟩ : BufTy).Contents (Elt F) → (⟨S1700000, .i32⟩ : BufTy).Contents (Elt F)),
    StableHlo.binary main_v7 main_v27 main_v28 (addi : (⟨S1700000, .i32⟩ : BufTy).Contents (Elt F) → (⟨S1700000, .i32⟩ : BufTy).Contents (Elt F) → (⟨S1700000, .i32⟩ : BufTy).Contents (Elt F)),
    StableHlo.ternary main_v26 main_v28 main_v7 main_v29 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v29 main_v30 (broadcastInDim S1700000x1 ![0] bcast_S1700000_S1700000x1_0 : (⟨S1700000, .i32⟩ : BufTy).Contents (Elt F) → (⟨S1700000x1, .i32⟩ : BufTy).Contents (Elt F)),
    StableHlo.binary main_v16 main_v30 main_v31 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v24 main_v31 main_v32 (mulf : (⟨S1700000, .f32⟩ : BufTy).Contents (Elt F) → (⟨S1700000, .f32⟩ : BufTy).Contents (Elt F) → (⟨S1700000, .f32⟩ : BufTy).Contents (Elt F)),
    StableHlo.unary main_v32 main_v33 (broadcastInDim S1700000x1 ![0] bcast_S1700000_S1700000x1_0 : (⟨S1700000, .f32⟩ : BufTy).Contents (Elt F) → (⟨S1700000x1, .f32⟩ : BufTy).Contents (Elt F)),
    StableHlo.nullary main_c_6 (constantI S_ 32 0#32),
    StableHlo.unary main_c_6 main_v34 (broadcastInDim S1700000 ![] bcast_S_S1700000 : (⟨S_, .i32⟩ : BufTy).Contents (Elt F) → (⟨S1700000, .i32⟩ : BufTy).Contents (Elt F)),
    StableHlo.binary main_v4 main_v34 main_v35 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v36 (broadcastInDim S1700000 ![] bcast_S_S1700000 : (⟨S_, .i32⟩ : BufTy).Contents (Elt F) → (⟨S1700000, .i32⟩ : BufTy).Contents (Elt F)),
    StableHlo.binary main_v4 main_v36 main_v37 (addi : (⟨S1700000, .i32⟩ : BufTy).Contents (Elt F) → (⟨S1700000, .i32⟩ : BufTy).Contents (Elt F) → (⟨S1700000, .i32⟩ : BufTy).Contents (Elt F)),
    StableHlo.ternary main_v35 main_v37 main_v4 main_v38 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v38 main_v39 (broadcastInDim S1700000x1 ![0] bcast_S1700000_S1700000x1_0 : (⟨S1700000, .i32⟩ : BufTy).Contents (Elt F) → (⟨S1700000x1, .i32⟩ : BufTy).Contents (Elt F)),
    StableHlo.binary main_v0 main_v39 main_v40 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v33 main_v41 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v41 main_v40 main_v42 (mulf : (⟨S1700000x128, .f32⟩ : BufTy).Contents (Elt F) → (⟨S1700000x128, .f32⟩ : BufTy).Contents (Elt F) → (⟨S1700000x128, .f32⟩ : BufTy).Contents (Elt F)),
    StableHlo.nullary main_cst_8 (constant S_ .f32 0x00000000#32),
    StableHlo.unary main_cst_8 main_v43 (broadcastInDim S100000x128 ![] bcast_S_S100000x128 : (⟨S_, .f32⟩ : BufTy).Contents (Elt F) → (⟨S100000x128, .f32⟩ : BufTy).Contents (Elt F)),
    StableHlo.unary main_v7 main_v44 (broadcastInDim S1700000x1 ![0] bcast_S1700000_S1700000x1_0 : (⟨S1700000, .i32⟩ : BufTy).Contents (Elt F) → (⟨S1700000x1, .i32⟩ : BufTy).Contents (Elt F)),
    StableHlo.ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg4 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S100000x128 ![0, 1] bcast_S1x128_S100000x128_0_1 : (⟨S1x128, .f32⟩ : BufTy).Contents (Elt F) → (⟨S100000x128, .f32⟩ : BufTy).Contents (Elt F)),
    StableHlo.binary main_v45 main_v47 main_v48 (addf : (⟨S100000x128, .f32⟩ : BufTy).Contents (Elt F) → (⟨S100000x128, .f32⟩ : BufTy).Contents (Elt F) → (⟨S100000x128, .f32⟩ : BufTy).Contents (Elt F)) ]

-- some sixty binds re-associated: the rewrite under the chain recurses once per statement
set_option maxRecDepth 4096 in
set_option maxHeartbeats 4000000 in
/-- The window is that straight line: one chain of `hlo` steps once the callees are unfolded and sequencing is reassociated. -/
theorem part0_eq (c : Dev nD) : main_part0 (F := F) c = seq ops0 := by
  simp only [main_part0, fn_where.body, seq, bind_assoc, pure_bind]
  rfl

/-- Every operation of the window touches TensorCore references only. -/
theorem ops0_sub : (ops0 : List (HloOp τ sig (Elt F))).Forall fun op => op.bufs ⊆ tcRefs τ sig :=
  ⟨binary_bufs_sub .., nullary_bufs_sub .., unary_bufs_sub .., reshape_bufs_sub .., binary_bufs_sub .., unary_bufs_sub ..,
    reshape_bufs_sub .., binary_bufs_sub .., nullary_bufs_sub .., unary_bufs_sub .., binary_bufs_sub .., nullary_bufs_sub ..,
    unary_bufs_sub .., unary_bufs_sub .., ternary_bufs_sub .., nullary_bufs_sub .., unary_bufs_sub .., binary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., unary_bufs_sub ..,
    unary_bufs_sub .., binary_bufs_sub ..⟩

/-- No operation of the window allocates a buffer. -/
theorem ops0_fresh : (ops0 : List (HloOp τ sig (Elt F))).Forall fun op => op.fresh = ∅ := by
  simp only [List.Forall]; repeat' constructor

end Cert.ReferenceIdeal.Hand

end
-- ==== Proof.ROps1.lean ====
/- The reference program's @main, statements 61 to 120 (its second printed window), as the list of the host operations it runs in order; the call of `elu` is written as the callee's operations over the call's own buffers (its two inner calls of `_where_0` and `_where_1` likewise), and the call of `_where` as the callee's three. -/
import proofs.«128740_j1786706395262_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The window's 76 operations, in order. -/
abbrev ops1 : List (HloOp τ sig (Elt F)) :=
  [ StableHlo.TRef.nullary main_call1.cst (constant S_ .f32 0x00000000#32),
    StableHlo.TRef.unary main_call1.cst main_call1.v0 (broadcastInDim S100000x128 ![] bcast_S_S100000x128),
    StableHlo.TRef.binary (.of main_v48) main_call1.v0 main_call1.v1 (cmpf .ogt),
    StableHlo.TRef.nullary main_call1.cst_0 (constant S_ .f32 0x00000000#32),
    StableHlo.TRef.unary main_call1.cst_0 main_call1.v2 (broadcastInDim S100000x128 ![] bcast_S_S100000x128),
    StableHlo.TRef.binary (.of main_v48) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x128 ![] bcast_S_S100000x128),
    StableHlo.TRef.ternary main_call1.v3 main_call1.call0.v1 (.of main_v48) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x128 ![] bcast_S_S100000x128),
    StableHlo.TRef.binary main_call1.v6 main_call1.v5 main_call1.v7 mulf,
    StableHlo.TRef.ternary main_call1.v1 (.of main_v48) main_call1.v7 main_call1.call1.v0 select,
    StableHlo.binary main_v49 main_arg5 main_v50 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    StableHlo.nullary main_v51 (iotaInDim S100000 32 0),
    StableHlo.unary main_arg1 main_v52 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v52 main_v53 rfl shapeCasts_S1x1600000_S1600000,
    StableHlo.binary main_v53 main_v51 main_v54 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v55 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v55 main_v56 rfl shapeCasts_S1x1600000_S1600000,
    StableHlo.binary main_v56 main_v51 main_v57 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst_9 (constant S_ .f32 0x3F800000#32),
    StableHlo.unary main_cst_9 main_v58 (broadcastInDim S100000 ![] bcast_S_S100000 : (⟨S_, .f32⟩ : BufTy).Contents (Elt F) → (⟨S100000, .f32⟩ : BufTy).Contents (Elt F)),
    StableHlo.binary main_arg2 main_v58 main_v59 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    StableHlo.nullary main_cst_10 (constant S_ .f32 0x00000000#32),
    StableHlo.unary main_cst_10 main_v60 (broadcastInDim S100000 ![] bcast_S_S100000 : (⟨S_, .f32⟩ : BufTy).Contents (Elt F) → (⟨S100000, .f32⟩ : BufTy).Contents (Elt F)),
    StableHlo.unary main_v57 main_v61 (broadcastInDim S1700000x1 ![0] bcast_S1700000_S1700000x1_0 : (⟨S1700000, .i32⟩ : BufTy).Contents (Elt F) → (⟨S1700000x1, .i32⟩ : BufTy).Contents (Elt F)),
    StableHlo.ternary main_v60 main_v61 main_v59 main_v62 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_11 (constant S_ .f32 0x00000000#32),
    StableHlo.unary main_cst_11 main_v63 (broadcastInDim S100000 ![] bcast_S_S100000 : (⟨S_, .f32⟩ : BufTy).Contents (Elt F) → (⟨S100000, .f32⟩ : BufTy).Contents (Elt F)),
    StableHlo.binary main_v62 main_v63 main_v64 (cmpf .ogt : (⟨S100000, .f32⟩ : BufTy).Contents (Elt F) → (⟨S100000, .f32⟩ : BufTy).Contents (Elt F) → (⟨S100000, .i1⟩ : BufTy).Contents (Elt F)),
    StableHlo.unary main_v62 main_v65 (Host.rsqrt : (⟨S100000, .f32⟩ : BufTy).Contents (Elt F) → (⟨S100000, .f32⟩ : BufTy).Contents (Elt F)),
    StableHlo.nullary main_cst_12 (constant S_ .f32 0x00000000#32),
    StableHlo.TRef.unary (.of main_cst_12) main_call2.v0 id,
    StableHlo.TRef.unary main_call2.v0 main_call2.v1 (broadcastInDim S100000 ![] bcast_S_S100000),
    StableHlo.TRef.ternary (.of main_v64) (.of main_v65) main_call2.v1 main_call2.v2 select,
    StableHlo.nullary main_c_13 (constantI S_ 32 0#32),
    StableHlo.unary main_c_13 main_v67 (broadcastInDim S1700000 ![] bcast_S_S1700000 : (⟨S_, .i32⟩ : BufTy).Contents (Elt F) → (⟨S1700000, .i32⟩ : BufTy).Contents (Elt F)),
    StableHlo.binary main_v54 main_v67 main_v68 (cmpi .slt : (⟨S1700000, .i32⟩ : BufTy).Contents (Elt F) → (⟨S1700000, .i32⟩ : BufTy).Contents (Elt F) → (⟨S1700000, .i1⟩ : BufTy).Contents (Elt F)),
    StableHlo.nullary main_c_14 (constantI S_ 32 100000#32),
    StableHlo.unary main_c_14 main_v69 (broadcastInDim S1700000 ![] bcast_S_S1700000 : (⟨S_, .i32⟩ : BufTy).Contents (Elt F) → (⟨S1700000, .i32⟩ : BufTy).Contents (Elt F)),
    StableHlo.binary main_v54 main_v69 main_v70 (addi : (⟨S1700000, .i32⟩ : BufTy).Contents (Elt F) → (⟨S1700000, .i32⟩ : BufTy).Contents (Elt F) → (⟨S1700000, .i32⟩ : BufTy).Contents (Elt F)),
    StableHlo.ternary main_v68 main_v70 main_v54 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v71 main_v72 (broadcastInDim S1700000x1 ![0] bcast_S1700000_S1700000x1_0 : (⟨S1700000, .i32⟩ : BufTy).Contents (Elt F) → (⟨S1700000x1, .i32⟩ : BufTy).Contents (Elt F)),
    StableHlo.binary main_v66 main_v72 main_v73 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v73 main_v59 main_v74 (mulf : (⟨S1700000, .f32⟩ : BufTy).Contents (Elt F) → (⟨S1700000, .f32⟩ : BufTy).Contents (Elt F) → (⟨S1700000, .f32⟩ : BufTy).Contents (Elt F)),
    StableHlo.nullary main_c_15 (constantI S_ 32 0#32),
    StableHlo.unary main_c_15 main_v75 (broadcastInDim S1700000 ![] bcast_S_S1700000 : (⟨S_, .i32⟩ : BufTy).Contents (Elt F) → (⟨S1700000, .i32⟩ : BufTy).Contents (Elt F)),
    StableHlo.binary main_v57 main_v75 main_v76 (cmpi .slt : (⟨S1700000, .i32⟩ : BufTy).Contents (Elt F) → (⟨S1700000, .i32⟩ : BufTy).Contents (Elt F) → (⟨S1700000, .i1⟩ : BufTy).Contents (Elt F)),
    StableHlo.nullary main_c_16 (constantI S_ 32 100000#32),
    StableHlo.unary main_c_16 main_v77 (broadcastInDim S1700000 ![] bcast_S_S1700000 : (⟨S_, .i32⟩ : BufTy).Contents (Elt F) → (⟨S1700000, .i32⟩ : BufTy).Contents (Elt F)),
    StableHlo.binary main_v57 main_v77 main_v78 (addi : (⟨S1700000, .i32⟩ : BufTy).Contents (Elt F) → (⟨S1700000, .i32⟩ : BufTy).Contents (Elt F) → (⟨S1700000, .i32⟩ : BufTy).Contents (Elt F)),
    StableHlo.ternary main_v76 main_v78 main_v57 main_v79 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v79 main_v80 (broadcastInDim S1700000x1 ![0] bcast_S1700000_S1700000x1_0 : (⟨S1700000, .i32⟩ : BufTy).Contents (Elt F) → (⟨S1700000x1, .i32⟩ : BufTy).Contents (Elt F)),
    StableHlo.binary main_v66 main_v80 main_v81 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v74 main_v81 main_v82 (mulf : (⟨S1700000, .f32⟩ : BufTy).Contents (Elt F) → (⟨S1700000, .f32⟩ : BufTy).Contents (Elt F) → (⟨S1700000, .f32⟩ : BufTy).Contents (Elt F)),
    StableHlo.unary main_v82 main_v83 (broadcastInDim S1700000x1 ![0] bcast_S1700000_S1700000x1_0 : (⟨S1700000, .f32⟩ : BufTy).Contents (Elt F) → (⟨S1700000x1, .f32⟩ : BufTy).Contents (Elt F)),
    StableHlo.nullary main_c_17 (constantI S_ 32 0#32),
    StableHlo.unary main_c_17 main_v84 (broadcastInDim S1700000 ![] bcast_S_S1700000 : (⟨S_, .i32⟩ : BufTy).Contents (Elt F) → (⟨S1700000, .i32⟩ : BufTy).Contents (Elt F)),
    StableHlo.binary main_v54 main_v84 main_v85 (cmpi .slt : (⟨S1700000, .i32⟩ : BufTy).Contents (Elt F) → (⟨S1700000, .i32⟩ : BufTy).Contents (Elt F) → (⟨S1700000, .i1⟩ : BufTy).Contents (Elt F)),
    StableHlo.nullary main_c_18 (constantI S_ 32 100000#32),
    StableHlo.unary main_c_18 main_v86 (broadcastInDim S1700000 ![] bcast_S_S1700000 : (⟨S_, .i32⟩ : BufTy).Contents (Elt F) → (⟨S1700000, .i32⟩ : BufTy).Contents (Elt F)),
    StableHlo.binary main_v54 main_v86 main_v87 (addi : (⟨S1700000, .i32⟩ : BufTy).Contents (Elt F) → (⟨S1700000, .i32⟩ : BufTy).Contents (Elt F) → (⟨S1700000, .i32⟩ : BufTy).Contents (Elt F)),
    StableHlo.ternary main_v85 main_v87 main_v54 main_v88 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v88 main_v89 (broadcastInDim S1700000x1 ![0] bcast_S1700000_S1700000x1_0 : (⟨S1700000, .i32⟩ : BufTy).Contents (Elt F) → (⟨S1700000x1, .i32⟩ : BufTy).Contents (Elt F)),
    StableHlo.binary main_v50 main_v89 main_v90 ((fun x i => Host.gather gather_S100000x1_S1700000x1_S1700000x1_1_0_n_n_0_1_11 x i) : (⟨S100000x1, .f32⟩ : BufTy).Contents (Elt F) → (⟨S1700000x1, .i32⟩ : BufTy).Contents (Elt F) → (⟨S1700000x1, .f32⟩ : BufTy).Contents (Elt F)),
    StableHlo.binary main_v83 main_v90 main_v91 (mulf : (⟨S1700000x1, .f32⟩ : BufTy).Contents (Elt F) → (⟨S1700000x1, .f32⟩ : BufTy).Contents (Elt F) → (⟨S1700000x1, .f32⟩ : BufTy).Contents (Elt F)),
    StableHlo.nullary main_cst_19 (constant S_ .f32 0x00000000#32),
    StableHlo.unary main_cst_19 main_v92 (broadcastInDim S100000x1 ![] bcast_S_S100000x1 : (⟨S_, .f32⟩ : BufTy).Contents (Elt F) → (⟨S100000x1, .f32⟩ : BufTy).Contents (Elt F)),
    StableHlo.unary main_v57 main_v93 (broadcastInDim S1700000x1 ![0] bcast_S1700000_S1700000x1_0 : (⟨S1700000, .i32⟩ : BufTy).Contents (Elt F) → (⟨S1700000x1, .i32⟩ : BufTy).Contents (Elt F)),
    StableHlo.ternary main_v92 main_v93 main_v91 main_v94 ((fun x i u => Host.scatterAdd scatter_S100000x1_S1700000x1_S1700000x1_1_0_0_1 x i u) : (⟨S100000x1, .f32⟩ : BufTy).Contents (Elt F) → (⟨S1700000x1, .i32⟩ : BufTy).Contents (Elt F) → (⟨S1700000x1, .f32⟩ : BufTy).Contents (Elt F) → (⟨S100000x1, .f32⟩ : BufTy).Contents (Elt F)),
    StableHlo.unary main_arg6 main_v95 (broadcastInDim S1x1 ![1] bcast_S1_S1x1_1 : (⟨S1, .f32⟩ : BufTy).Contents (Elt F) → (⟨S1x1, .f32⟩ : BufTy).Contents (Elt F)),
    StableHlo.unary main_v95 main_v96 (broadcastInDim S100000x1 ![0, 1] bcast_S1x1_S100000x1_0_1 : (⟨S1x1, .f32⟩ : BufTy).Contents (Elt F) → (⟨S100000x1, .f32⟩ : BufTy).Contents (Elt F)),
    StableHlo.binary main_v94 main_v96 main_v97 (addf : (⟨S100000x1, .f32⟩ : BufTy).Contents (Elt F) → (⟨S100000x1, .f32⟩ : BufTy).Contents (Elt F) → (⟨S100000x1, .f32⟩ : BufTy).Contents (Elt F)) ]

-- some sixty binds re-associated: the rewrite under the chain recurses once per statement
set_option maxRecDepth 4096 in
set_option maxHeartbeats 4000000 in
/-- The window is that straight line: one chain of `hlo` steps once the callees are unfolded and sequencing is reassociated. -/
theorem part1_eq (c : Dev nD) : main_part1 (F := F) c = seq ops1 := by
  simp only [main_part1, fn_elu.body, fn_where.body, fn_where_0.body, fn_where_1.body, seq, bind_assoc, pure_bind]
  rfl

/-- Every operation of the window touches TensorCore references only. -/
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., binary_bufs_sub .., nullary_bufs_sub .., unary_bufs_sub ..,
    reshape_bufs_sub .., binary_bufs_sub .., unary_bufs_sub .., reshape_bufs_sub .., binary_bufs_sub .., nullary_bufs_sub ..,
    unary_bufs_sub .., binary_bufs_sub .., nullary_bufs_sub .., unary_bufs_sub .., unary_bufs_sub .., ternary_bufs_sub ..,
    nullary_bufs_sub .., unary_bufs_sub .., binary_bufs_sub .., unary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., unary_bufs_sub ..,
    ternary_bufs_sub .., unary_bufs_sub .., unary_bufs_sub .., binary_bufs_sub ..⟩

/-- No operation of the window allocates a buffer. -/
theorem ops1_fresh : (ops1 : List (HloOp τ sig (Elt F))).Forall fun op => op.fresh = ∅ := by
  simp only [List.Forall]; repeat' constructor

end Cert.ReferenceIdeal.Hand

end
-- ==== Proof.ROps2.lean ====
/- The reference program's @main, statements 121 to 129 (its last printed window), as the list of the host operations it runs in order. -/
import proofs.«128740_j1786706395262_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The window's 8 operations, in order. -/
abbrev ops2 : List (HloOp τ sig (Elt F)) :=
  [ StableHlo.unary main_v97 main_v98 (Host.negf : (⟨S100000x1, .f32⟩ : BufTy).Contents (Elt F) → (⟨S100000x1, .f32⟩ : BufTy).Contents (Elt F)),
    StableHlo.unary main_v98 main_v99 (Host.exp : (⟨S100000x1, .f32⟩ : BufTy).Contents (Elt F) → (⟨S100000x1, .f32⟩ : BufTy).Contents (Elt F)),
    StableHlo.nullary main_cst_20 (constant S_ .f32 0x3F800000#32),
    StableHlo.unary main_cst_20 main_v100 (broadcastInDim S100000x1 ![] bcast_S_S100000x1 : (⟨S_, .f32⟩ : BufTy).Contents (Elt F) → (⟨S100000x1, .f32⟩ : BufTy).Contents (Elt F)),
    StableHlo.binary main_v100 main_v99 main_v101 (addf : (⟨S100000x1, .f32⟩ : BufTy).Contents (Elt F) → (⟨S100000x1, .f32⟩ : BufTy).Contents (Elt F) → (⟨S100000x1, .f32⟩ : BufTy).Contents (Elt F)),
    StableHlo.nullary main_cst_21 (constant S_ .f32 0x3F800000#32),
    StableHlo.unary main_cst_21 main_v102 (broadcastInDim S100000x1 ![] bcast_S_S100000x1 : (⟨S_, .f32⟩ : BufTy).Contents (Elt F) → (⟨S100000x1, .f32⟩ : BufTy).Contents (Elt F)),
    StableHlo.binary main_v102 main_v101 main_v103 (Host.divf : (⟨S100000x1, .f32⟩ : BufTy).Contents (Elt F) → (⟨S100000x1, .f32⟩ : BufTy).Contents (Elt F) → (⟨S100000x1, .f32⟩ : BufTy).Contents (Elt F)) ]

/-- The window is that straight line: one chain of `hlo` steps once the callees are unfolded and sequencing is reassociated. -/
theorem part2_eq (c : Dev nD) : main_part2 (F := F) c = seq ops2 := rfl

/-- Every operation of the window touches TensorCore references only. -/
theorem ops2_sub : (ops2 : List (HloOp τ sig (Elt F))).Forall fun op => op.bufs ⊆ tcRefs τ sig :=
  ⟨unary_bufs_sub .., unary_bufs_sub .., nullary_bufs_sub .., unary_bufs_sub .., binary_bufs_sub .., nullary_bufs_sub ..,
    unary_bufs_sub .., binary_bufs_sub ..⟩

/-- No operation of the window allocates a buffer. -/
theorem ops2_fresh : (ops2 : List (HloOp τ sig (Elt F))).Forall fun op => op.fresh = ∅ := by
  simp only [List.Forall]; repeat' constructor

end Cert.ReferenceIdeal.Hand

end
-- ==== Proof.RRun.lean ====
/- The reference program's run: @main is the straight line of its three windows' operations, so from any memory with
   zero counters every weakly fair execution terminates with each TensorCore buffer at the fold of the operations'
   results over the launch contents. -/
import proofs.«128740_j1786706395262_2_alg».proof.Proof.ROps0
import proofs.«128740_j1786706395262_2_alg».proof.Proof.ROps1
import proofs.«128740_j1786706395262_2_alg».proof.Proof.ROps2

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation is the fold over the second line from the fold over the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A property of every operation of two lines holds of every operation of their concatenation. -/
theorem forall_append {α : Type} {p : α → Prop} {l₁ l₂ : List α} (h₁ : l₁.Forall p) (h₂ : l₂.Forall p) : (l₁ ++ l₂).Forall p :=
  List.forall_iff_forall_mem.mpr fun x hx => (List.mem_append.mp hx).elim
    (List.forall_iff_forall_mem.mp h₁ x) (List.forall_iff_forall_mem.mp h₂ x)

/-- @main is the three windows' operations run as one line. -/
theorem main_eq (c : Dev nD) : main (F := F) c = seq (ops0 ++ (ops1 ++ ops2)) := by
  rw [seq_append, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates, and every final state has each TensorCore buffer at the fold of the three windows' operations, in
    order, over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after ops2 (after ops1 (after ops0 (launchContents m c))) (Proc.devRef .tc b) :=
  (θ_run defs _ _).mono (fun _ h c b => (h c b).trans (by rw [after_append, after_append]))
    (run_seq scopedRefs_eq scopedSems_eq defs main (fun _ => ops0 ++ (ops1 ++ ops2)) main_eq
      (fun _ => forall_append ops0_sub (forall_append ops1_sub ops2_sub)) m ρ
      (fun _ => List.forall_iff_forall_mem.mp (forall_append ops0_fresh (forall_append ops1_fresh ops2_fresh))))

end Cert.ReferenceIdeal.Hand

end
-- ==== Proof.Bridge.lean ====
/-
  The reference program's spellings joined to the specification's functions, at the ideal values and for
  arbitrary arrays. The dense layers: a one-axis contraction read at an index is the sum over that axis. The
  activations: the reference's elu is select (v > 0) v (1 · (e^(select (v > 0) 0 v) − 1)), which is v where v > 0 and
  e^v − 1 elsewhere; its sigmoid is 1 / (1 + e^(−v)). A bias is broadcast to one row and then down the rows. The
  edge bookkeeping is spelt with the same array operations as the specification's, over dimension-number records
  and shape facts that are the reference's own constants with the same data.
-/
import proofs.«128740_j1786706395262_2_alg».proof.Proof.Spec
import proofs.«128740_j1786706395262_2_alg».proof.Proof.Gen.ReferenceIdeal
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.Gcn

open Idealize.ShloMosaic Idealize.ShloMosaic.ValueIdx Cert.KernelIdeal Cert.KernelIdeal.Facts₀

/-! ## The two dense layers -/

/-- The first dense layer's dimension numbers, as the reference names them. -/
local notation "D1" => Cert.ReferenceIdeal.dot_S100000x128_S128x128_S100000x128_1_0_0_1_n_n
/-- The second dense layer's dimension numbers, as the reference names them. -/
local notation "D2" => Cert.ReferenceIdeal.dot_S100000x128_S128x1_S100000x1_1_0_0_1_n_n

/-- x · W1 as the reference spells it: entry (r, j) is the sum over k of x (r, k) · W1 (k, j). -/
theorem dot1_eq (x : FVec Ideal S100000x128 .f32) (w : FVec Ideal S128x128 .f32) :
    Host.dotGeneral D1 none x w = lin x w := by
  funext i
  simp only [Host.dotGeneral]
  rw [Ideal.dotGeneral_apply]
  rw [← Equiv.sum_comp (contrEquiv1 D1 128 rfl rfl).symm]
  refine Finset.sum_congr rfl fun k _ => ?_
  have hl : DotDims.lhsIdx D1 i ((contrEquiv1 D1 128 rfl rfl).symm k) = ix2 (i 0) k := by
    funext a
    match a with
    | ⟨0, _⟩ => exact Fin.ext (by simp [DotDims.lhsIdx, Cert.ReferenceIdeal.dot_S100000x128_S128x128_S100000x128_1_0_0_1_n_n]; rfl)
    | ⟨1, _⟩ =>
      exact Fin.ext ((DotDims.lhsIdx_val_of_single D1 (cl := (1 : Fin 2)) rfl i _).trans
        (contrEquiv1_symm_val D1 128 rfl rfl k))
  have hr : DotDims.rhsIdx D1 i ((contrEquiv1 D1 128 rfl rfl).symm k) = ix2 k (i 1) := by
    funext a
    match a with
    | ⟨0, _⟩ =>
      exact Fin.ext ((DotDims.rhsIdx_val_of_single D1 (cr := (0 : Fin 2)) rfl i _).trans
        (contrEquiv1_symm_val D1 128 rfl rfl k))
    | ⟨1, _⟩ => exact Fin.ext (by simp [DotDims.rhsIdx, Cert.ReferenceIdeal.dot_S100000x128_S128x128_S100000x128_1_0_0_1_n_n]; rfl)
  rw [hl, hr]
  rfl

/-- e · W2 as the reference spells it: entry (r, 0) is the sum over k of e (r, k) · W2 (k, 0). -/
theorem dot2_eq (e : FVec Ideal S100000x128 .f32) (w : FVec Ideal S128x1 .f32) :
    Host.dotGeneral D2 none e w = projOf e w := by
  funext i
  simp only [Host.dotGeneral]
  rw [Ideal.dotGeneral_apply]
  rw [← Equiv.sum_comp (contrEquiv1 D2 128 rfl rfl).symm]
  refine Finset.sum_congr rfl fun k _ => ?_
  have hl : DotDims.lhsIdx D2 i ((contrEquiv1 D2 128 rfl rfl).symm k) = ix2 (i 0) k := by
    funext a
    match a with
    | ⟨0, _⟩ => exact Fin.ext (by simp [DotDims.lhsIdx, Cert.ReferenceIdeal.dot_S100000x128_S128x1_S100000x1_1_0_0_1_n_n]; rfl)
    | ⟨1, _⟩ =>
      exact Fin.ext ((DotDims.lhsIdx_val_of_single D2 (cl := (1 : Fin 2)) rfl i _).trans
        (contrEquiv1_symm_val D2 128 rfl rfl k))
  have hr : DotDims.rhsIdx D2 i ((contrEquiv1 D2 128 rfl rfl).symm k) = ix2 k (0 : Fin 1) := by
    funext a
    match a with
    | ⟨0, _⟩ =>
      exact Fin.ext ((DotDims.rhsIdx_val_of_single D2 (cr := (0 : Fin 2)) rfl i _).trans
        (contrEquiv1_symm_val D2 128 rfl rfl k))
    | ⟨1, _⟩ =>
      have e1 : ∀ p q : Fin 1, p = q := fun p q => Subsingleton.elim p q
      exact e1 _ _
  rw [hl, hr]
  rfl

/-! ## The biases and the activations -/

/-- A bias vector broadcast to one row and then down the rows reads the vector at the column. -/
theorem bias128_apply (b : FVec Ideal S128 .f32) (i : S100000x128.Idx) :
    broadcastInDim S100000x128 ![0, 1] Cert.ReferenceIdeal.Facts₀.bcast_S1x128_S100000x128_0_1
      (broadcastInDim S1x128 ![1] Cert.ReferenceIdeal.Facts₀.bcast_S128_S1x128_1 b) i = b (ix1 (i 1)) := by
  refine (broadcastInDim_apply _ _ _ i (ix2 0 (i 1)) (fun a => match a with | ⟨0, _⟩ => rfl | ⟨1, _⟩ => rfl)).trans ?_
  exact broadcastInDim_apply _ _ _ _ (ix1 (i 1)) (fun a => match a with | ⟨0, _⟩ => rfl)

/-- A one-element bias broadcast to a one-by-one array and then down the rows reads the element. -/
theorem bias1_apply (b : FVec Ideal S1 .f32) (i : S100000x1.Idx) :
    broadcastInDim S100000x1 ![0, 1] Cert.ReferenceIdeal.Facts₀.bcast_S1x1_S100000x1_0_1
      (broadcastInDim S1x1 ![1] Cert.ReferenceIdeal.Facts₀.bcast_S1_S1x1_1 b) i = b (ix1 0) := by
  refine (broadcastInDim_apply _ _ _ i (ix2 0 0) (fun a => match a with | ⟨0, _⟩ => rfl | ⟨1, _⟩ => rfl)).trans ?_
  exact broadcastInDim_apply _ _ _ _ (ix1 0) (fun a => match a with | ⟨0, _⟩ => rfl)

/-- a + b1, the bias broadcast as the reference broadcasts it. -/
def addBias128 (a : FVec Ideal S100000x128 .f32) (b : FVec Ideal S128 .f32) : FVec Ideal S100000x128 .f32 :=
  addf a (broadcastInDim S100000x128 ![0, 1] Cert.ReferenceIdeal.Facts₀.bcast_S1x128_S100000x128_0_1
    (broadcastInDim S1x128 ![1] Cert.ReferenceIdeal.Facts₀.bcast_S128_S1x128_1 b))

/-- a + b2, the bias broadcast as the reference broadcasts it. -/
def addBias1 (a : FVec Ideal S100000x1 .f32) (b : FVec Ideal S1 .f32) : FVec Ideal S100000x1 .f32 :=
  addf a (broadcastInDim S100000x1 ![0, 1] Cert.ReferenceIdeal.Facts₀.bcast_S1x1_S100000x1_0_1
    (broadcastInDim S1x1 ![1] Cert.ReferenceIdeal.Facts₀.bcast_S1_S1x1_1 b))

/-- The reference's elu, as printed: select (v > 0) v (1 · expm1 (select (v > 0) 0 v)), the constants broadcast scalars. -/
def eluRef (v : FVec Ideal S100000x128 .f32) : FVec Ideal S100000x128 .f32 :=
  select (cmpf .ogt v (broadcastInDim S100000x128 ![] Cert.ReferenceIdeal.Facts₀.bcast_S_S100000x128 (constant (F := Ideal) S_ .f32 0x00000000#32))) v
    (mulf (broadcastInDim S100000x128 ![] Cert.ReferenceIdeal.Facts₀.bcast_S_S100000x128 (constant (F := Ideal) S_ .f32 0x3F800000#32))
      (Host.expm1 (select (cmpf .ogt v (broadcastInDim S100000x128 ![] Cert.ReferenceIdeal.Facts₀.bcast_S_S100000x128 (constant (F := Ideal) S_ .f32 0x00000000#32)))
        (broadcastInDim S100000x128 ![] Cert.ReferenceIdeal.Facts₀.bcast_S_S100000x128 (constant (F := Ideal) S_ .f32 0x00000000#32)) v)))

/-- The reference's sigmoid, as printed: 1 / (1 + exponential (negate v)), the ones broadcast scalars. -/
def sigRef (v : FVec Ideal S100000x1 .f32) : FVec Ideal S100000x1 .f32 :=
  Host.divf (broadcastInDim S100000x1 ![] Cert.ReferenceIdeal.Facts₀.bcast_S_S100000x1 (constant (F := Ideal) S_ .f32 0x3F800000#32))
    (addf (broadcastInDim S100000x1 ![] Cert.ReferenceIdeal.Facts₀.bcast_S_S100000x1 (constant (F := Ideal) S_ .f32 0x3F800000#32))
      (Host.exp (Host.negf v)))

/-- The printed elu at an index: where v > 0 both selects take v; elsewhere the inner select is v, expm1 y is e^y − 1,
    and the factor one drops. -/
theorem eluRef_apply (v : FVec Ideal S100000x128 .f32) (i : S100000x128.Idx) : eluRef v i = elu (v i) := by
  show Scalar.select (Ideal.cmp .ogt (v i) (Ideal.ofBits .f32 0x00000000#32)) (v i)
      (Ideal.ofBits .f32 0x3F800000#32 * (Ideal.exp (Scalar.select (Ideal.cmp .ogt (v i) (Ideal.ofBits .f32 0x00000000#32)) (Ideal.ofBits .f32 0x00000000#32) (v i)) - 1)) = elu (v i)
  rw [word_zero, word_one, one_mul]
  unfold elu
  rcases BitVec.eq_zero_or_eq_one (Ideal.cmp .ogt (v i) 0) with h | h
  · simp only [h, select_zero]
  · simp only [h, select_one]

/-- The printed sigmoid at an index. -/
theorem sigRef_apply (v : FVec Ideal S100000x1 .f32) (i : S100000x1.Idx) : sigRef v i = sigm (v i) := by
  show Ideal.div (Ideal.ofBits .f32 0x3F800000#32) (Ideal.ofBits .f32 0x3F800000#32 + Ideal.exp (-(v i))) = sigm (v i)
  rw [word_one]
  rfl

/-- bias + elu, as the reference spells them, is the specification's embedding activation. -/
theorem embOf_ref (a : FVec Ideal S100000x128 .f32) (b1 : FVec Ideal S128 .f32) : eluRef (addBias128 a b1) = embOf a b1 := by
  funext i
  rw [eluRef_apply]
  show elu (a i + _) = elu (a i + b1 (ix1 (i 1)))
  rw [bias128_apply]

/-- bias + sigmoid, as the reference spells them, is the specification's output activation. -/
theorem sigOf_ref (a : FVec Ideal S100000x1 .f32) (b2 : FVec Ideal S1 .f32) : sigRef (addBias1 a b2) = sigOf a b2 := by
  funext i
  rw [sigRef_apply]
  show sigm (a i + _) = sigm (a i + b2 (ix1 0))
  rw [bias1_apply]

/-! ## The edge bookkeeping: the reference's records and facts are the same data -/

theorem scat_eq : Cert.ReferenceIdeal.scatter_S100000_S1700000x1_S1700000_n_0_0_1
    = Cert.KernelIdeal.scatter_S100000_S1700000x1_S1700000_n_0_0_1 := rfl
theorem gath_eq : Cert.ReferenceIdeal.gather_S100000_S1700000x1_S1700000_n_0_n_n_0_1_1
    = Cert.KernelIdeal.gather_S100000_S1700000x1_S1700000_n_0_n_n_0_1_1 := rfl
theorem gath128_eq : Cert.ReferenceIdeal.gather_S100000x128_S1700000x1_S1700000x128_1_0_n_n_0_1_1128
    = Cert.KernelIdeal.gather_S100000x128_S1700000x1_S1700000x128_1_0_n_n_0_1_1128 := rfl
theorem scat128_eq : Cert.ReferenceIdeal.scatter_S100000x128_S1700000x1_S1700000x128_1_0_0_1
    = Cert.KernelIdeal.scatter_S100000x128_S1700000x1_S1700000x128_1_0_0_1 := rfl
theorem gath1_eq : Cert.ReferenceIdeal.gather_S100000x1_S1700000x1_S1700000x1_1_0_n_n_0_1_11
    = Cert.KernelIdeal.gather_S100000x1_S1700000x1_S1700000x1_1_0_n_n_0_1_11 := rfl
theorem scat1_eq : Cert.ReferenceIdeal.scatter_S100000x1_S1700000x1_S1700000x1_1_0_0_1
    = Cert.KernelIdeal.scatter_S100000x1_S1700000x1_S1700000x1_1_0_0_1 := rfl

/-- Source endpoints, in the reference's spelling. -/
theorem rowOf_ref (ei : IVec S2x1600000 32) :
    concatenate S1700000 0
      [⟨S1600000, shapeCast S1600000 (extractStridedSlice S1x1600000 ![0, 0] ei Cert.ReferenceIdeal.Facts₀.slices_S2x1600000_S1x1600000_0_0)
          Cert.ReferenceIdeal.Facts₀.shapeCasts_S1x1600000_S1600000⟩,
       ⟨S100000, iotaInDim S100000 32 0⟩] Cert.ReferenceIdeal.Facts₀.concatenates_S1600000_S100000_S1700000_d0 = rowOf ei := rfl

/-- Target endpoints, in the reference's spelling. -/
theorem colOf_ref (ei : IVec S2x1600000 32) :
    concatenate S1700000 0
      [⟨S1600000, shapeCast S1600000 (extractStridedSlice S1x1600000 ![1, 0] ei Cert.ReferenceIdeal.Facts₀.slices_S2x1600000_S1x1600000_1_0)
          Cert.ReferenceIdeal.Facts₀.shapeCasts_S1x1600000_S1600000⟩,
       ⟨S100000, iotaInDim S100000 32 0⟩] Cert.ReferenceIdeal.Facts₀.concatenates_S1600000_S100000_S1700000_d0 = colOf ei := rfl

/-- The weights with the self-loops' ones, in the reference's spelling. -/
theorem ewOf_ref (ew : FVec Ideal S1600000 .f32) :
    concatenate S1700000 0
      [⟨S1600000, ew⟩,
       ⟨S100000, broadcastInDim S100000 ![] Cert.ReferenceIdeal.Facts₀.bcast_S_S100000 (constant (F := Ideal) S_ .f32 0x3F800000#32)⟩]
      Cert.ReferenceIdeal.Facts₀.concatenates_S1600000_S100000_S1700000_d0 = ewOf ew := rfl

/-- A vector of node ids as a one-column index array, in the reference's spelling. -/
theorem asCol_ref (v : IVec S1700000 32) :
    broadcastInDim S1700000x1 ![0] Cert.ReferenceIdeal.Facts₀.bcast_S1700000_S1700000x1_0 v = asCol v := rfl

/-- The wrap of negative ids, in the reference's spelling. -/
theorem wrap_ref (v : IVec S1700000 32) :
    select (cmpi .slt v (broadcastInDim S1700000 ![] Cert.ReferenceIdeal.Facts₀.bcast_S_S1700000 (constantI S_ 32 0#32)))
      (addi v (broadcastInDim S1700000 ![] Cert.ReferenceIdeal.Facts₀.bcast_S_S1700000 (constantI S_ 32 100000#32))) v = wrap v := rfl

/-- The zero vector over the nodes, in the reference's spelling. -/
theorem zeroN_ref :
    broadcastInDim S100000 ![] Cert.ReferenceIdeal.Facts₀.bcast_S_S100000 (constant (F := Ideal) S_ .f32 0x00000000#32) = zeroN := rfl

/-- The degrees, in the reference's spelling. -/
theorem degOf_ref (col : IVec S1700000 32) (ewf : FVec Ideal S1700000 .f32) :
    Host.scatterAdd Cert.ReferenceIdeal.scatter_S100000_S1700000x1_S1700000_n_0_0_1 zeroN (asCol col) ewf = degOf col ewf := rfl

/-- The inverse square roots of the degrees, in the reference's spelling (a select against a broadcast zero). -/
theorem dinvOf_ref (deg : FVec Ideal S100000 .f32) :
    select (cmpf .ogt deg zeroN) (Host.rsqrt deg) zeroN = dinvOf deg := rfl

/-- The edge coefficients, in the reference's spelling. -/
theorem normOf_ref (dinv : FVec Ideal S100000 .f32) (row col : IVec S1700000 32) (ewf : FVec Ideal S1700000 .f32) :
    mulf (mulf (Host.gather Cert.ReferenceIdeal.gather_S100000_S1700000x1_S1700000_n_0_n_n_0_1_1 dinv (asCol (wrap row))) ewf)
      (Host.gather Cert.ReferenceIdeal.gather_S100000_S1700000x1_S1700000_n_0_n_n_0_1_1 dinv (asCol (wrap col))) = normOf dinv row col ewf := rfl

/-- One aggregation of 128-wide features, in the reference's spelling. -/
theorem agg128Of_ref (nrm : FVec Ideal S1700000 .f32) (row col : IVec S1700000 32) (h : FVec Ideal S100000x128 .f32) :
    Host.scatterAdd Cert.ReferenceIdeal.scatter_S100000x128_S1700000x1_S1700000x128_1_0_0_1
      (broadcastInDim S100000x128 ![] Cert.ReferenceIdeal.Facts₀.bcast_S_S100000x128 (constant (F := Ideal) S_ .f32 0x00000000#32)) (asCol col)
      (mulf (broadcastInDim S1700000x128 ![0, 1] Cert.ReferenceIdeal.Facts₀.bcast_S1700000x1_S1700000x128_0_1
              (broadcastInDim S1700000x1 ![0] Cert.ReferenceIdeal.Facts₀.bcast_S1700000_S1700000x1_0 nrm))
        (Host.gather Cert.ReferenceIdeal.gather_S100000x128_S1700000x1_S1700000x128_1_0_n_n_0_1_1128 h (asCol (wrap row))))
      = agg128Of nrm row col h := rfl

/-- One aggregation of one-wide features, in the reference's spelling. -/
theorem agg1Of_ref (nrm : FVec Ideal S1700000 .f32) (row col : IVec S1700000 32) (h : FVec Ideal S100000x1 .f32) :
    Host.scatterAdd Cert.ReferenceIdeal.scatter_S100000x1_S1700000x1_S1700000x1_1_0_0_1
      (broadcastInDim S100000x1 ![] Cert.ReferenceIdeal.Facts₀.bcast_S_S100000x1 (constant (F := Ideal) S_ .f32 0x00000000#32)) (asCol col)
      (mulf (broadcastInDim S1700000x1 ![0] Cert.ReferenceIdeal.Facts₀.bcast_S1700000_S1700000x1_0 nrm)
        (Host.gather Cert.ReferenceIdeal.gather_S100000x1_S1700000x1_S1700000x1_1_0_n_n_0_1_11 h (asCol (wrap row))))
      = agg1Of nrm row col h := rfl

end Cert.Gcn

end
-- ==== Proof.RRead0.lean ====
/-
  The reference's first window read for an arbitrary valuation: the window's operations in four consecutive pieces,
  each piece's results as the specification's edge functions of what the piece finds (the buffers a later piece reads
  pass through the pieces that do not write them), and the pieces composed: the window's last value is the
  aggregation of x · W1 plus the bias.
-/
import proofs.«128740_j1786706395262_2_alg».proof.Proof.ROps0
import proofs.«128740_j1786706395262_2_alg».proof.Proof.RRun
import proofs.«128740_j1786706395262_2_alg».proof.Proof.Spec
import proofs.«128740_j1786706395262_2_alg».proof.Proof.Bridge

noncomputable section

namespace Cert.ReferenceIdeal.Hand

open Cert.ReferenceIdeal Cert.ReferenceIdeal.Gen Idealize.ShloMosaic Idealize.ShloMosaic.TcCoe Idealize.SL.Sem Idealize.ShloMosaic.StableHlo

section Pieces
variable {F : FTy → Type} [FloatOps F]

/-- Operations 1 to 20 of the window. -/
abbrev ops0b : List (HloOp τ sig (Elt F)) :=
  [ StableHlo.binary main_arg0 main_arg3 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_v1 (iotaInDim S100000 32 0),
    StableHlo.unary main_arg1 main_v2 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_v3 main_v1 main_v4 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v5 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v5 main_v6 rfl shapeCasts_S1x1600000_S1600000,
    StableHlo.binary main_v6 main_v1 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v8 (broadcastInDim S100000 ![] bcast_S_S100000 : (⟨S_, .f32⟩ : BufTy).Contents (Elt F) → (⟨S100000, .f32⟩ : BufTy).Contents (Elt F)),
    StableHlo.binary main_arg2 main_v8 main_v9 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    StableHlo.nullary main_cst_0 (constant S_ .f32 0x00000000#32),
    StableHlo.unary main_cst_0 main_v10 (broadcastInDim S100000 ![] bcast_S_S100000 : (⟨S_, .f32⟩ : BufTy).Contents (Elt F) → (⟨S100000, .f32⟩ : BufTy).Contents (Elt F)),
    StableHlo.unary main_v7 main_v11 (broadcastInDim S1700000x1 ![0] bcast_S1700000_S1700000x1_0 : (⟨S1700000, .i32⟩ : BufTy).Contents (Elt F) → (⟨S1700000x1, .i32⟩ : BufTy).Contents (Elt F)),
    StableHlo.ternary main_v10 main_v11 main_v9 main_v12 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v13 (broadcastInDim S100000 ![] bcast_S_S100000 : (⟨S_, .f32⟩ : BufTy).Contents (Elt F) → (⟨S100000, .f32⟩ : BufTy).Contents (Elt F)),
    StableHlo.binary main_v12 main_v13 main_v14 (cmpf .ogt : (⟨S100000, .f32⟩ : BufTy).Contents (Elt F) → (⟨S100000, .f32⟩ : BufTy).Contents (Elt F) → (⟨S100000, .i1⟩ : BufTy).Contents (Elt F)),
    StableHlo.unary main_v12 main_v15 (Host.rsqrt : (⟨S100000, .f32⟩ : BufTy).Contents (Elt F) → (⟨S100000, .f32⟩ : BufTy).Contents (Elt F)),
    StableHlo.nullary main_cst_2 (constant S_ .f32 0x00000000#32) ]

/-- Operations 21 to 23 of the window. -/
abbrev ops0c : List (HloOp τ sig (Elt F)) :=
  [ StableHlo.TRef.unary (.of main_cst_2) main_call0.v0 id,
    StableHlo.TRef.unary main_call0.v0 main_call0.v1 (broadcastInDim S100000 ![] bcast_S_S100000),
    StableHlo.TRef.ternary (.of main_v14) (.of main_v15) main_call0.v1 main_call0.v2 select ]

/-- Operations 24 to 43 of the window. -/
abbrev ops0d : List (HloOp τ sig (Elt F)) :=
  [ StableHlo.nullary main_c (constantI S_ 32 0#32),
    StableHlo.unary main_c main_v17 (broadcastInDim S1700000 ![] bcast_S_S1700000 : (⟨S_, .i32⟩ : BufTy).Contents (Elt F) → (⟨S1700000, .i32⟩ : BufTy).Contents (Elt F)),
    StableHlo.binary main_v4 main_v17 main_v18 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v19 (broadcastInDim S1700000 ![] bcast_S_S1700000 : (⟨S_, .i32⟩ : BufTy).Contents (Elt F) → (⟨S1700000, .i32⟩ : BufTy).Contents (Elt F)),
    StableHlo.binary main_v4 main_v19 main_v20 (addi : (⟨S1700000, .i32⟩ : BufTy).Contents (Elt F) → (⟨S1700000, .i32⟩ : BufTy).Contents (Elt F) → (⟨S1700000, .i32⟩ : BufTy).Contents (Elt F)),
    StableHlo.ternary main_v18 main_v20 main_v4 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v21 main_v22 (broadcastInDim S1700000x1 ![0] bcast_S1700000_S1700000x1_0 : (⟨S1700000, .i32⟩ : BufTy).Contents (Elt F) → (⟨S1700000x1, .i32⟩ : BufTy).Contents (Elt F)),
    StableHlo.binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v23 main_v9 main_v24 (mulf : (⟨S1700000, .f32⟩ : BufTy).Contents (Elt F) → (⟨S1700000, .f32⟩ : BufTy).Contents (Elt F) → (⟨S1700000, .f32⟩ : BufTy).Contents (Elt F)),
    StableHlo.nullary main_c_4 (constantI S_ 32 0#32),
    StableHlo.unary main_c_4 main_v25 (broadcastInDim S1700000 ![] bcast_S_S1700000 : (⟨S_, .i32⟩ : BufTy).Contents (Elt F) → (⟨S1700000, .i32⟩ : BufTy).Contents (Elt F)),
    StableHlo.binary main_v7 main_v25 main_v26 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v27 (broadcastInDim S1700000 ![] bcast_S_S1700000 : (⟨S_, .i32⟩ : BufTy).Contents (Elt F) → (⟨S1700000, .i32⟩ : BufTy).Contents (Elt F)),
    StableHlo.binary main_v7 main_v27 main_v28 (addi : (⟨S1700000, .i32⟩ : BufTy).Contents (Elt F) → (⟨S1700000, .i32⟩ : BufTy).Contents (Elt F) → (⟨S1700000, .i32⟩ : BufTy).Contents (Elt F)),
    StableHlo.ternary main_v26 main_v28 main_v7 main_v29 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v29 main_v30 (broadcastInDim S1700000x1 ![0] bcast_S1700000_S1700000x1_0 : (⟨S1700000, .i32⟩ : BufTy).Contents (Elt F) → (⟨S1700000x1, .i32⟩ : BufTy).Contents (Elt F)),
    StableHlo.binary main_v16 main_v30 main_v31 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v24 main_v31 main_v32 (mulf : (⟨S1700000, .f32⟩ : BufTy).Contents (Elt F) → (⟨S1700000, .f32⟩ : BufTy).Contents (Elt F) → (⟨S1700000, .f32⟩ : BufTy).Contents (Elt F)) ]

/-- Operations 44 to 62 of the window. -/
abbrev ops0e : List (HloOp τ sig (Elt F)) :=
  [ StableHlo.unary main_v32 main_v33 (broadcastInDim S1700000x1 ![0] bcast_S1700000_S1700000x1_0 : (⟨S1700000, .f32⟩ : BufTy).Contents (Elt F) → (⟨S1700000x1, .f32⟩ : BufTy).Contents (Elt F)),
    StableHlo.nullary main_c_6 (constantI S_ 32 0#32),
    StableHlo.unary main_c_6 main_v34 (broadcastInDim S1700000 ![] bcast_S_S1700000 : (⟨S_, .i32⟩ : BufTy).Contents (Elt F) → (⟨S1700000, .i32⟩ : BufTy).Contents (Elt F)),
    StableHlo.binary main_v4 main_v34 main_v35 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v36 (broadcastInDim S1700000 ![] bcast_S_S1700000 : (⟨S_, .i32⟩ : BufTy).Contents (Elt F) → (⟨S1700000, .i32⟩ : BufTy).Contents (Elt F)),
    StableHlo.binary main_v4 main_v36 main_v37 (addi : (⟨S1700000, .i32⟩ : BufTy).Contents (Elt F) → (⟨S1700000, .i32⟩ : BufTy).Contents (Elt F) → (⟨S1700000, .i32⟩ : BufTy).Contents (Elt F)),
    StableHlo.ternary main_v35 main_v37 main_v4 main_v38 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v38 main_v39 (broadcastInDim S1700000x1 ![0] bcast_S1700000_S1700000x1_0 : (⟨S1700000, .i32⟩ : BufTy).Contents (Elt F) → (⟨S1700000x1, .i32⟩ : BufTy).Contents (Elt F)),
    StableHlo.binary main_v0 main_v39 main_v40 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v33 main_v41 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v41 main_v40 main_v42 (mulf : (⟨S1700000x128, .f32⟩ : BufTy).Contents (Elt F) → (⟨S1700000x128, .f32⟩ : BufTy).Contents (Elt F) → (⟨S1700000x128, .f32⟩ : BufTy).Contents (Elt F)),
    StableHlo.nullary main_cst_8 (constant S_ .f32 0x00000000#32),
    StableHlo.unary main_cst_8 main_v43 (broadcastInDim S100000x128 ![] bcast_S_S100000x128 : (⟨S_, .f32⟩ : BufTy).Contents (Elt F) → (⟨S100000x128, .f32⟩ : BufTy).Contents (Elt F)),
    StableHlo.unary main_v7 main_v44 (broadcastInDim S1700000x1 ![0] bcast_S1700000_S1700000x1_0 : (⟨S1700000, .i32⟩ : BufTy).Contents (Elt F) → (⟨S1700000x1, .i32⟩ : BufTy).Contents (Elt F)),
    StableHlo.ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg4 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S100000x128 ![0, 1] bcast_S1x128_S100000x128_0_1 : (⟨S1x128, .f32⟩ : BufTy).Contents (Elt F) → (⟨S100000x128, .f32⟩ : BufTy).Contents (Elt F)),
    StableHlo.binary main_v45 main_v47 main_v48 (addf : (⟨S100000x128, .f32⟩ : BufTy).Contents (Elt F) → (⟨S100000x128, .f32⟩ : BufTy).Contents (Elt F) → (⟨S100000x128, .f32⟩ : BufTy).Contents (Elt F)) ]

/-- The window is its four pieces in order. -/
theorem ops0_split : (ops0 : List (HloOp τ sig (Elt F))) = ops0b ++ (ops0c ++ (ops0d ++ ops0e)) := rfl

end Pieces

theorem zb_v0 (W : Valuation τ sig (Elt Ideal)) :
    after (ops0b (F := Ideal)) W (Proc.devRef .tc main_v0)
      = Host.dotGeneral (F := Ideal) (φ₁ := .f32) (φ₂ := .f32) dot_S100000x128_S128x128_S100000x128_1_0_0_1_n_n none (W (Proc.devRef .tc main_arg0)) (W (Proc.devRef .tc main_arg3)) := by
  after_results_simp

theorem zb_v4 (W : Valuation τ sig (Elt Ideal)) :
    after (ops0b (F := Ideal)) W (Proc.devRef .tc main_v4)
      = Cert.Gcn.rowOf (W (Proc.devRef .tc main_arg1)) := by
  after_results_simp
  rfl

theorem zb_v7 (W : Valuation τ sig (Elt Ideal)) :
    after (ops0b (F := Ideal)) W (Proc.devRef .tc main_v7)
      = Cert.Gcn.colOf (W (Proc.devRef .tc main_arg1)) := by
  after_results_simp
  rfl

theorem zb_v9 (W : Valuation τ sig (Elt Ideal)) :
    after (ops0b (F := Ideal)) W (Proc.devRef .tc main_v9)
      = Cert.Gcn.ewOf (W (Proc.devRef .tc main_arg2)) := by
  after_results_simp
  rfl

theorem zb_v14 (W : Valuation τ sig (Elt Ideal)) :
    after (ops0b (F := Ideal)) W (Proc.devRef .tc main_v14)
      = cmpf .ogt (Cert.Gcn.degOf (Cert.Gcn.colOf (W (Proc.devRef .tc main_arg1))) (Cert.Gcn.ewOf (W (Proc.devRef .tc main_arg2)))) Cert.Gcn.zeroN := by
  after_results_simp
  rfl

theorem zb_v15 (W : Valuation τ sig (Elt Ideal)) :
    after (ops0b (F := Ideal)) W (Proc.devRef .tc main_v15)
      = Host.rsqrt (Cert.Gcn.degOf (Cert.Gcn.colOf (W (Proc.devRef .tc main_arg1))) (Cert.Gcn.ewOf (W (Proc.devRef .tc main_arg2)))) := by
  after_results_simp
  rfl

theorem zb_cst_2 (W : Valuation τ sig (Elt Ideal)) :
    after (ops0b (F := Ideal)) W (Proc.devRef .tc main_cst_2)
      = constant (F := Ideal) S_ .f32 0x00000000#32 := by
  after_results_simp

theorem zb_arg4 (W : Valuation τ sig (Elt Ideal)) :
    after (ops0b (F := Ideal)) W (Proc.devRef .tc main_arg4) = W (Proc.devRef .tc main_arg4) := by
  after_results_simp

theorem zc_v16 (W : Valuation τ sig (Elt Ideal)) :
    after (ops0c (F := Ideal)) W (Proc.devRef .tc main_v16)
      = select (W (Proc.devRef .tc main_v14)) (W (Proc.devRef .tc main_v15)) (broadcastInDim S100000 ![] Facts₀.bcast_S_S100000 (W (Proc.devRef .tc main_cst_2))) := by
  after_results_simp
  rfl

theorem zc_v0 (W : Valuation τ sig (Elt Ideal)) :
    after (ops0c (F := Ideal)) W (Proc.devRef .tc main_v0) = W (Proc.devRef .tc main_v0) := by
  after_results_simp

theorem zc_v4 (W : Valuation τ sig (Elt Ideal)) :
    after (ops0c (F := Ideal)) W (Proc.devRef .tc main_v4) = W (Proc.devRef .tc main_v4) := by
  after_results_simp

theorem zc_v7 (W : Valuation τ sig (Elt Ideal)) :
    after (ops0c (F := Ideal)) W (Proc.devRef .tc main_v7) = W (Proc.devRef .tc main_v7) := by
  after_results_simp

theorem zc_v9 (W : Valuation τ sig (Elt Ideal)) :
    after (ops0c (F := Ideal)) W (Proc.devRef .tc main_v9) = W (Proc.devRef .tc main_v9) := by
  after_results_simp

theorem zc_arg4 (W : Valuation τ sig (Elt Ideal)) :
    after (ops0c (F := Ideal)) W (Proc.devRef .tc main_arg4) = W (Proc.devRef .tc main_arg4) := by
  after_results_simp

theorem zd_v32 (W : Valuation τ sig (Elt Ideal)) :
    after (ops0d (F := Ideal)) W (Proc.devRef .tc main_v32)
      = Cert.Gcn.normOf (W (Proc.devRef .tc main_v16)) (W (Proc.devRef .tc main_v4)) (W (Proc.devRef .tc main_v7)) (W (Proc.devRef .tc main_v9)) := by
  after_results_simp
  rfl

theorem zd_v0 (W : Valuation τ sig (Elt Ideal)) :
    after (ops0d (F := Ideal)) W (Proc.devRef .tc main_v0) = W (Proc.devRef .tc main_v0) := by
  after_results_simp

theorem zd_v4 (W : Valuation τ sig (Elt Ideal)) :
    after (ops0d (F := Ideal)) W (Proc.devRef .tc main_v4) = W (Proc.devRef .tc main_v4) := by
  after_results_simp

theorem zd_v7 (W : Valuation τ sig (Elt Ideal)) :
    after (ops0d (F := Ideal)) W (Proc.devRef .tc main_v7) = W (Proc.devRef .tc main_v7) := by
  after_results_simp

theorem zd_arg4 (W : Valuation τ sig (Elt Ideal)) :
    after (ops0d (F := Ideal)) W (Proc.devRef .tc main_arg4) = W (Proc.devRef .tc main_arg4) := by
  after_results_simp

theorem ze_v48 (W : Valuation τ sig (Elt Ideal)) :
    after (ops0e (F := Ideal)) W (Proc.devRef .tc main_v48)
      = Cert.Gcn.addBias128 (Cert.Gcn.agg128Of (W (Proc.devRef .tc main_v32)) (W (Proc.devRef .tc main_v4)) (W (Proc.devRef .tc main_v7)) (W (Proc.devRef .tc main_v0))) (W (Proc.devRef .tc main_arg4)) := by
  after_results_simp
  rfl

/-! ## The window: the pieces composed -/

/-- The window's last value: the aggregation of x · W1, the product in the reference's spelling, plus the bias. -/
theorem r0_v48 (W : Valuation τ sig (Elt Ideal)) :
    after (ops0 (F := Ideal)) W (Proc.devRef .tc main_v48)
      = Cert.Gcn.addBias128 (Cert.Gcn.agg128 (W (Proc.devRef .tc main_arg1)) (W (Proc.devRef .tc main_arg2))
          (Host.dotGeneral (F := Ideal) (φ₁ := .f32) (φ₂ := .f32) dot_S100000x128_S128x128_S100000x128_1_0_0_1_n_n none
            (W (Proc.devRef .tc main_arg0)) (W (Proc.devRef .tc main_arg3))))
          (W (Proc.devRef .tc main_arg4)) := by
  rw [ops0_split, after_append, after_append, after_append]
  rw [ze_v48, zd_v32, zd_v4, zd_v7, zd_v0, zd_arg4, zc_v16, zc_v4, zc_v7, zc_v9, zc_v0, zc_arg4,
    zb_v14, zb_v15, zb_cst_2, zb_v4, zb_v7, zb_v9, zb_v0, zb_arg4]
  rfl

/-! ## The arguments pass through the window -/

set_option maxHeartbeats 2000000 in
theorem r0_arg0 (W : Valuation τ sig (Elt Ideal)) :
    after (ops0 (F := Ideal)) W (Proc.devRef .tc main_arg0) = W (Proc.devRef .tc main_arg0) := by
  after_results_simp

set_option maxHeartbeats 2000000 in
theorem r0_arg1 (W : Valuation τ sig (Elt Ideal)) :
    after (ops0 (F := Ideal)) W (Proc.devRef .tc main_arg1) = W (Proc.devRef .tc main_arg1) := by
  after_results_simp

set_option maxHeartbeats 2000000 in
theorem r0_arg2 (W : Valuation τ sig (Elt Ideal)) :
    after (ops0 (F := Ideal)) W (Proc.devRef .tc main_arg2) = W (Proc.devRef .tc main_arg2) := by
  after_results_simp

set_option maxHeartbeats 2000000 in
theorem r0_arg3 (W : Valuation τ sig (Elt Ideal)) :
    after (ops0 (F := Ideal)) W (Proc.devRef .tc main_arg3) = W (Proc.devRef .tc main_arg3) := by
  after_results_simp

set_option maxHeartbeats 2000000 in
theorem r0_arg4 (W : Valuation τ sig (Elt Ideal)) :
    after (ops0 (F := Ideal)) W (Proc.devRef .tc main_arg4) = W (Proc.devRef .tc main_arg4) := by
  after_results_simp

set_option maxHeartbeats 2000000 in
theorem r0_arg5 (W : Valuation τ sig (Elt Ideal)) :
    after (ops0 (F := Ideal)) W (Proc.devRef .tc main_arg5) = W (Proc.devRef .tc main_arg5) := by
  after_results_simp

set_option maxHeartbeats 2000000 in
theorem r0_arg6 (W : Valuation τ sig (Elt Ideal)) :
    after (ops0 (F := Ideal)) W (Proc.devRef .tc main_arg6) = W (Proc.devRef .tc main_arg6) := by
  after_results_simp

end Cert.ReferenceIdeal.Hand

end
-- ==== Proof.RRead1.lean ====
/-
  The reference's second window read for an arbitrary valuation: the window's operations in five consecutive pieces,
  each piece's results as the specification's edge functions of what the piece finds (the buffers a later piece reads
  pass through the pieces that do not write them), and the pieces composed: the embedding is the printed elu of
  what the first window left, and the window's last value is the aggregation of emb · W2 plus the bias.
-/
import proofs.«128740_j1786706395262_2_alg».proof.Proof.ROps1
import proofs.«128740_j1786706395262_2_alg».proof.Proof.RRun
import proofs.«128740_j1786706395262_2_alg».proof.Proof.Spec
import proofs.«128740_j1786706395262_2_alg».proof.Proof.Bridge

noncomputable section

namespace Cert.ReferenceIdeal.Hand

open Cert.ReferenceIdeal Cert.ReferenceIdeal.Gen Idealize.ShloMosaic Idealize.ShloMosaic.TcCoe Idealize.SL.Sem Idealize.ShloMosaic.StableHlo

section Pieces
variable {F : FTy → Type} [FloatOps F]

/-- Operations 1 to 15 of the window. -/
abbrev ops1a : List (HloOp τ sig (Elt F)) :=
  [ StableHlo.TRef.nullary main_call1.cst (constant S_ .f32 0x00000000#32),
    StableHlo.TRef.unary main_call1.cst main_call1.v0 (broadcastInDim S100000x128 ![] bcast_S_S100000x128),
    StableHlo.TRef.binary (.of main_v48) main_call1.v0 main_call1.v1 (cmpf .ogt),
    StableHlo.TRef.nullary main_call1.cst_0 (constant S_ .f32 0x00000000#32),
    StableHlo.TRef.unary main_call1.cst_0 main_call1.v2 (broadcastInDim S100000x128 ![] bcast_S_S100000x128),
    StableHlo.TRef.binary (.of main_v48) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x128 ![] bcast_S_S100000x128),
    StableHlo.TRef.ternary main_call1.v3 main_call1.call0.v1 (.of main_v48) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x128 ![] bcast_S_S100000x128),
    StableHlo.TRef.binary main_call1.v6 main_call1.v5 main_call1.v7 mulf,
    StableHlo.TRef.ternary main_call1.v1 (.of main_v48) main_call1.v7 main_call1.call1.v0 select ]

/-- Operations 16 to 35 of the window. -/
abbrev ops1b : List (HloOp τ sig (Elt F)) :=
  [ StableHlo.binary main_v49 main_arg5 main_v50 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    StableHlo.nullary main_v51 (iotaInDim S100000 32 0),
    StableHlo.unary main_arg1 main_v52 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v52 main_v53 rfl shapeCasts_S1x1600000_S1600000,
    StableHlo.binary main_v53 main_v51 main_v54 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v55 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v55 main_v56 rfl shapeCasts_S1x1600000_S1600000,
    StableHlo.binary main_v56 main_v51 main_v57 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst_9 (constant S_ .f32 0x3F800000#32),
    StableHlo.unary main_cst_9 main_v58 (broadcastInDim S100000 ![] bcast_S_S100000 : (⟨S_, .f32⟩ : BufTy).Contents (Elt F) → (⟨S100000, .f32⟩ : BufTy).Contents (Elt F)),
    StableHlo.binary main_arg2 main_v58 main_v59 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    StableHlo.nullary main_cst_10 (constant S_ .f32 0x00000000#32),
    StableHlo.unary main_cst_10 main_v60 (broadcastInDim S100000 ![] bcast_S_S100000 : (⟨S_, .f32⟩ : BufTy).Contents (Elt F) → (⟨S100000, .f32⟩ : BufTy).Contents (Elt F)),
    StableHlo.unary main_v57 main_v61 (broadcastInDim S1700000x1 ![0] bcast_S1700000_S1700000x1_0 : (⟨S1700000, .i32⟩ : BufTy).Contents (Elt F) → (⟨S1700000x1, .i32⟩ : BufTy).Contents (Elt F)),
    StableHlo.ternary main_v60 main_v61 main_v59 main_v62 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_11 (constant S_ .f32 0x00000000#32),
    StableHlo.unary main_cst_11 main_v63 (broadcastInDim S100000 ![] bcast_S_S100000 : (⟨S_, .f32⟩ : BufTy).Contents (Elt F) → (⟨S100000, .f32⟩ : BufTy).Contents (Elt F)),
    StableHlo.binary main_v62 main_v63 main_v64 (cmpf .ogt : (⟨S100000, .f32⟩ : BufTy).Contents (Elt F) → (⟨S100000, .f32⟩ : BufTy).Contents (Elt F) → (⟨S100000, .i1⟩ : BufTy).Contents (Elt F)),
    StableHlo.unary main_v62 main_v65 (Host.rsqrt : (⟨S100000, .f32⟩ : BufTy).Contents (Elt F) → (⟨S100000, .f32⟩ : BufTy).Contents (Elt F)),
    StableHlo.nullary main_cst_12 (constant S_ .f32 0x00000000#32) ]

/-- Operations 36 to 38 of the window. -/
abbrev ops1c : List (HloOp τ sig (Elt F)) :=
  [ StableHlo.TRef.unary (.of main_cst_12) main_call2.v0 id,
    StableHlo.TRef.unary main_call2.v0 main_call2.v1 (broadcastInDim S100000 ![] bcast_S_S100000),
    StableHlo.TRef.ternary (.of main_v64) (.of main_v65) main_call2.v1 main_call2.v2 select ]

/-- Operations 39 to 58 of the window. -/
abbrev ops1d : List (HloOp τ sig (Elt F)) :=
  [ StableHlo.nullary main_c_13 (constantI S_ 32 0#32),
    StableHlo.unary main_c_13 main_v67 (broadcastInDim S1700000 ![] bcast_S_S1700000 : (⟨S_, .i32⟩ : BufTy).Contents (Elt F) → (⟨S1700000, .i32⟩ : BufTy).Contents (Elt F)),
    StableHlo.binary main_v54 main_v67 main_v68 (cmpi .slt : (⟨S1700000, .i32⟩ : BufTy).Contents (Elt F) → (⟨S1700000, .i32⟩ : BufTy).Contents (Elt F) → (⟨S1700000, .i1⟩ : BufTy).Contents (Elt F)),
    StableHlo.nullary main_c_14 (constantI S_ 32 100000#32),
    StableHlo.unary main_c_14 main_v69 (broadcastInDim S1700000 ![] bcast_S_S1700000 : (⟨S_, .i32⟩ : BufTy).Contents (Elt F) → (⟨S1700000, .i32⟩ : BufTy).Contents (Elt F)),
    StableHlo.binary main_v54 main_v69 main_v70 (addi : (⟨S1700000, .i32⟩ : BufTy).Contents (Elt F) → (⟨S1700000, .i32⟩ : BufTy).Contents (Elt F) → (⟨S1700000, .i32⟩ : BufTy).Contents (Elt F)),
    StableHlo.ternary main_v68 main_v70 main_v54 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v71 main_v72 (broadcastInDim S1700000x1 ![0] bcast_S1700000_S1700000x1_0 : (⟨S1700000, .i32⟩ : BufTy).Contents (Elt F) → (⟨S1700000x1, .i32⟩ : BufTy).Contents (Elt F)),
    StableHlo.binary main_v66 main_v72 main_v73 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v73 main_v59 main_v74 (mulf : (⟨S1700000, .f32⟩ : BufTy).Contents (Elt F) → (⟨S1700000, .f32⟩ : BufTy).Contents (Elt F) → (⟨S1700000, .f32⟩ : BufTy).Contents (Elt F)),
    StableHlo.nullary main_c_15 (constantI S_ 32 0#32),
    StableHlo.unary main_c_15 main_v75 (broadcastInDim S1700000 ![] bcast_S_S1700000 : (⟨S_, .i32⟩ : BufTy).Contents (Elt F) → (⟨S1700000, .i32⟩ : BufTy).Contents (Elt F)),
    StableHlo.binary main_v57 main_v75 main_v76 (cmpi .slt : (⟨S1700000, .i32⟩ : BufTy).Contents (Elt F) → (⟨S1700000, .i32⟩ : BufTy).Contents (Elt F) → (⟨S1700000, .i1⟩ : BufTy).Contents (Elt F)),
    StableHlo.nullary main_c_16 (constantI S_ 32 100000#32),
    StableHlo.unary main_c_16 main_v77 (broadcastInDim S1700000 ![] bcast_S_S1700000 : (⟨S_, .i32⟩ : BufTy).Contents (Elt F) → (⟨S1700000, .i32⟩ : BufTy).Contents (Elt F)),
    StableHlo.binary main_v57 main_v77 main_v78 (addi : (⟨S1700000, .i32⟩ : BufTy).Contents (Elt F) → (⟨S1700000, .i32⟩ : BufTy).Contents (Elt F) → (⟨S1700000, .i32⟩ : BufTy).Contents (Elt F)),
    StableHlo.ternary main_v76 main_v78 main_v57 main_v79 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v79 main_v80 (broadcastInDim S1700000x1 ![0] bcast_S1700000_S1700000x1_0 : (⟨S1700000, .i32⟩ : BufTy).Contents (Elt F) → (⟨S1700000x1, .i32⟩ : BufTy).Contents (Elt F)),
    StableHlo.binary main_v66 main_v80 main_v81 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v74 main_v81 main_v82 (mulf : (⟨S1700000, .f32⟩ : BufTy).Contents (Elt F) → (⟨S1700000, .f32⟩ : BufTy).Contents (Elt F) → (⟨S1700000, .f32⟩ : BufTy).Contents (Elt F)) ]

/-- Operations 59 to 76 of the window. -/
abbrev ops1e : List (HloOp τ sig (Elt F)) :=
  [ StableHlo.unary main_v82 main_v83 (broadcastInDim S1700000x1 ![0] bcast_S1700000_S1700000x1_0 : (⟨S1700000, .f32⟩ : BufTy).Contents (Elt F) → (⟨S1700000x1, .f32⟩ : BufTy).Contents (Elt F)),
    StableHlo.nullary main_c_17 (constantI S_ 32 0#32),
    StableHlo.unary main_c_17 main_v84 (broadcastInDim S1700000 ![] bcast_S_S1700000 : (⟨S_, .i32⟩ : BufTy).Contents (Elt F) → (⟨S1700000, .i32⟩ : BufTy).Contents (Elt F)),
    StableHlo.binary main_v54 main_v84 main_v85 (cmpi .slt : (⟨S1700000, .i32⟩ : BufTy).Contents (Elt F) → (⟨S1700000, .i32⟩ : BufTy).Contents (Elt F) → (⟨S1700000, .i1⟩ : BufTy).Contents (Elt F)),
    StableHlo.nullary main_c_18 (constantI S_ 32 100000#32),
    StableHlo.unary main_c_18 main_v86 (broadcastInDim S1700000 ![] bcast_S_S1700000 : (⟨S_, .i32⟩ : BufTy).Contents (Elt F) → (⟨S1700000, .i32⟩ : BufTy).Contents (Elt F)),
    StableHlo.binary main_v54 main_v86 main_v87 (addi : (⟨S1700000, .i32⟩ : BufTy).Contents (Elt F) → (⟨S1700000, .i32⟩ : BufTy).Contents (Elt F) → (⟨S1700000, .i32⟩ : BufTy).Contents (Elt F)),
    StableHlo.ternary main_v85 main_v87 main_v54 main_v88 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v88 main_v89 (broadcastInDim S1700000x1 ![0] bcast_S1700000_S1700000x1_0 : (⟨S1700000, .i32⟩ : BufTy).Contents (Elt F) → (⟨S1700000x1, .i32⟩ : BufTy).Contents (Elt F)),
    StableHlo.binary main_v50 main_v89 main_v90 ((fun x i => Host.gather gather_S100000x1_S1700000x1_S1700000x1_1_0_n_n_0_1_11 x i) : (⟨S100000x1, .f32⟩ : BufTy).Contents (Elt F) → (⟨S1700000x1, .i32⟩ : BufTy).Contents (Elt F) → (⟨S1700000x1, .f32⟩ : BufTy).Contents (Elt F)),
    StableHlo.binary main_v83 main_v90 main_v91 (mulf : (⟨S1700000x1, .f32⟩ : BufTy).Contents (Elt F) → (⟨S1700000x1, .f32⟩ : BufTy).Contents (Elt F) → (⟨S1700000x1, .f32⟩ : BufTy).Contents (Elt F)),
    StableHlo.nullary main_cst_19 (constant S_ .f32 0x00000000#32),
    StableHlo.unary main_cst_19 main_v92 (broadcastInDim S100000x1 ![] bcast_S_S100000x1 : (⟨S_, .f32⟩ : BufTy).Contents (Elt F) → (⟨S100000x1, .f32⟩ : BufTy).Contents (Elt F)),
    StableHlo.unary main_v57 main_v93 (broadcastInDim S1700000x1 ![0] bcast_S1700000_S1700000x1_0 : (⟨S1700000, .i32⟩ : BufTy).Contents (Elt F) → (⟨S1700000x1, .i32⟩ : BufTy).Contents (Elt F)),
    StableHlo.ternary main_v92 main_v93 main_v91 main_v94 ((fun x i u => Host.scatterAdd scatter_S100000x1_S1700000x1_S1700000x1_1_0_0_1 x i u) : (⟨S100000x1, .f32⟩ : BufTy).Contents (Elt F) → (⟨S1700000x1, .i32⟩ : BufTy).Contents (Elt F) → (⟨S1700000x1, .f32⟩ : BufTy).Contents (Elt F) → (⟨S100000x1, .f32⟩ : BufTy).Contents (Elt F)),
    StableHlo.unary main_arg6 main_v95 (broadcastInDim S1x1 ![1] bcast_S1_S1x1_1 : (⟨S1, .f32⟩ : BufTy).Contents (Elt F) → (⟨S1x1, .f32⟩ : BufTy).Contents (Elt F)),
    StableHlo.unary main_v95 main_v96 (broadcastInDim S100000x1 ![0, 1] bcast_S1x1_S100000x1_0_1 : (⟨S1x1, .f32⟩ : BufTy).Contents (Elt F) → (⟨S100000x1, .f32⟩ : BufTy).Contents (Elt F)),
    StableHlo.binary main_v94 main_v96 main_v97 (addf : (⟨S100000x1, .f32⟩ : BufTy).Contents (Elt F) → (⟨S100000x1, .f32⟩ : BufTy).Contents (Elt F) → (⟨S100000x1, .f32⟩ : BufTy).Contents (Elt F)) ]

/-- The window is its five pieces in order. -/
theorem ops1_split : (ops1 : List (HloOp τ sig (Elt F))) = ops1a ++ (ops1b ++ (ops1c ++ (ops1d ++ ops1e))) := rfl

end Pieces

/-! ## Piece a: the call of elu -/

theorem a_v49 (W : Valuation τ sig (Elt Ideal)) :
    after (ops1a (F := Ideal)) W (Proc.devRef .tc main_v49)
      = Cert.Gcn.eluRef (W (Proc.devRef .tc main_v48)) := by
  after_results_simp
  rfl

theorem a_arg1 (W : Valuation τ sig (Elt Ideal)) :
    after (ops1a (F := Ideal)) W (Proc.devRef .tc main_arg1) = W (Proc.devRef .tc main_arg1) := by
  after_results_simp

theorem a_arg2 (W : Valuation τ sig (Elt Ideal)) :
    after (ops1a (F := Ideal)) W (Proc.devRef .tc main_arg2) = W (Proc.devRef .tc main_arg2) := by
  after_results_simp

theorem a_arg5 (W : Valuation τ sig (Elt Ideal)) :
    after (ops1a (F := Ideal)) W (Proc.devRef .tc main_arg5) = W (Proc.devRef .tc main_arg5) := by
  after_results_simp

theorem a_arg6 (W : Valuation τ sig (Elt Ideal)) :
    after (ops1a (F := Ideal)) W (Proc.devRef .tc main_arg6) = W (Proc.devRef .tc main_arg6) := by
  after_results_simp

/-! ## Piece b: the second dense layer, the edge lists, the degrees -/

theorem b_v50 (W : Valuation τ sig (Elt Ideal)) :
    after (ops1b (F := Ideal)) W (Proc.devRef .tc main_v50)
      = Host.dotGeneral (F := Ideal) (φ₁ := .f32) (φ₂ := .f32) dot_S100000x128_S128x1_S100000x1_1_0_0_1_n_n none (W (Proc.devRef .tc main_v49)) (W (Proc.devRef .tc main_arg5)) := by
  after_results_simp

theorem b_v54 (W : Valuation τ sig (Elt Ideal)) :
    after (ops1b (F := Ideal)) W (Proc.devRef .tc main_v54)
      = Cert.Gcn.rowOf (W (Proc.devRef .tc main_arg1)) := by
  after_results_simp
  rfl

theorem b_v57 (W : Valuation τ sig (Elt Ideal)) :
    after (ops1b (F := Ideal)) W (Proc.devRef .tc main_v57)
      = Cert.Gcn.colOf (W (Proc.devRef .tc main_arg1)) := by
  after_results_simp
  rfl

theorem b_v59 (W : Valuation τ sig (Elt Ideal)) :
    after (ops1b (F := Ideal)) W (Proc.devRef .tc main_v59)
      = Cert.Gcn.ewOf (W (Proc.devRef .tc main_arg2)) := by
  after_results_simp
  rfl

theorem b_v64 (W : Valuation τ sig (Elt Ideal)) :
    after (ops1b (F := Ideal)) W (Proc.devRef .tc main_v64)
      = cmpf .ogt (Cert.Gcn.degOf (Cert.Gcn.colOf (W (Proc.devRef .tc main_arg1))) (Cert.Gcn.ewOf (W (Proc.devRef .tc main_arg2)))) Cert.Gcn.zeroN := by
  after_results_simp
  rfl

theorem b_v65 (W : Valuation τ sig (Elt Ideal)) :
    after (ops1b (F := Ideal)) W (Proc.devRef .tc main_v65)
      = Host.rsqrt (Cert.Gcn.degOf (Cert.Gcn.colOf (W (Proc.devRef .tc main_arg1))) (Cert.Gcn.ewOf (W (Proc.devRef .tc main_arg2)))) := by
  after_results_simp
  rfl

theorem b_cst_12 (W : Valuation τ sig (Elt Ideal)) :
    after (ops1b (F := Ideal)) W (Proc.devRef .tc main_cst_12)
      = constant (F := Ideal) S_ .f32 0x00000000#32 := by
  after_results_simp

theorem b_arg6 (W : Valuation τ sig (Elt Ideal)) :
    after (ops1b (F := Ideal)) W (Proc.devRef .tc main_arg6) = W (Proc.devRef .tc main_arg6) := by
  after_results_simp

/-! ## Piece c: the select of the inverse square roots -/

theorem c_v66 (W : Valuation τ sig (Elt Ideal)) :
    after (ops1c (F := Ideal)) W (Proc.devRef .tc main_v66)
      = select (W (Proc.devRef .tc main_v64)) (W (Proc.devRef .tc main_v65)) (broadcastInDim S100000 ![] Facts₀.bcast_S_S100000 (W (Proc.devRef .tc main_cst_12))) := by
  after_results_simp
  rfl

theorem c_v50 (W : Valuation τ sig (Elt Ideal)) :
    after (ops1c (F := Ideal)) W (Proc.devRef .tc main_v50) = W (Proc.devRef .tc main_v50) := by
  after_results_simp

theorem c_v54 (W : Valuation τ sig (Elt Ideal)) :
    after (ops1c (F := Ideal)) W (Proc.devRef .tc main_v54) = W (Proc.devRef .tc main_v54) := by
  after_results_simp

theorem c_v57 (W : Valuation τ sig (Elt Ideal)) :
    after (ops1c (F := Ideal)) W (Proc.devRef .tc main_v57) = W (Proc.devRef .tc main_v57) := by
  after_results_simp

theorem c_v59 (W : Valuation τ sig (Elt Ideal)) :
    after (ops1c (F := Ideal)) W (Proc.devRef .tc main_v59) = W (Proc.devRef .tc main_v59) := by
  after_results_simp

theorem c_arg6 (W : Valuation τ sig (Elt Ideal)) :
    after (ops1c (F := Ideal)) W (Proc.devRef .tc main_arg6) = W (Proc.devRef .tc main_arg6) := by
  after_results_simp

/-! ## Piece d: the edge coefficients -/

theorem d_v82 (W : Valuation τ sig (Elt Ideal)) :
    after (ops1d (F := Ideal)) W (Proc.devRef .tc main_v82)
      = Cert.Gcn.normOf (W (Proc.devRef .tc main_v66)) (W (Proc.devRef .tc main_v54)) (W (Proc.devRef .tc main_v57)) (W (Proc.devRef .tc main_v59)) := by
  after_results_simp
  rfl

theorem d_v50 (W : Valuation τ sig (Elt Ideal)) :
    after (ops1d (F := Ideal)) W (Proc.devRef .tc main_v50) = W (Proc.devRef .tc main_v50) := by
  after_results_simp

theorem d_v54 (W : Valuation τ sig (Elt Ideal)) :
    after (ops1d (F := Ideal)) W (Proc.devRef .tc main_v54) = W (Proc.devRef .tc main_v54) := by
  after_results_simp

theorem d_v57 (W : Valuation τ sig (Elt Ideal)) :
    after (ops1d (F := Ideal)) W (Proc.devRef .tc main_v57) = W (Proc.devRef .tc main_v57) := by
  after_results_simp

theorem d_arg6 (W : Valuation τ sig (Elt Ideal)) :
    after (ops1d (F := Ideal)) W (Proc.devRef .tc main_arg6) = W (Proc.devRef .tc main_arg6) := by
  after_results_simp

/-! ## Piece e: the aggregation and the bias -/

theorem e_v97 (W : Valuation τ sig (Elt Ideal)) :
    after (ops1e (F := Ideal)) W (Proc.devRef .tc main_v97)
      = Cert.Gcn.addBias1 (Cert.Gcn.agg1Of (W (Proc.devRef .tc main_v82)) (W (Proc.devRef .tc main_v54)) (W (Proc.devRef .tc main_v57)) (W (Proc.devRef .tc main_v50))) (W (Proc.devRef .tc main_arg6)) := by
  after_results_simp
  rfl

/-! ## The window: the pieces composed -/

set_option maxHeartbeats 2000000 in
/-- The embedding is the printed elu of what the first window left. -/
theorem r1_v49 (W : Valuation τ sig (Elt Ideal)) :
    after (ops1 (F := Ideal)) W (Proc.devRef .tc main_v49) = Cert.Gcn.eluRef (W (Proc.devRef .tc main_v48)) := by
  after_results_simp
  rfl

/-- The window's last value: the aggregation of emb · W2, the product in the reference's spelling, plus the bias. -/
theorem r1_v97 (W : Valuation τ sig (Elt Ideal)) :
    after (ops1 (F := Ideal)) W (Proc.devRef .tc main_v97)
      = Cert.Gcn.addBias1 (Cert.Gcn.agg1 (W (Proc.devRef .tc main_arg1)) (W (Proc.devRef .tc main_arg2))
          (Host.dotGeneral (F := Ideal) (φ₁ := .f32) (φ₂ := .f32) dot_S100000x128_S128x1_S100000x1_1_0_0_1_n_n none
            (Cert.Gcn.eluRef (W (Proc.devRef .tc main_v48))) (W (Proc.devRef .tc main_arg5))))
          (W (Proc.devRef .tc main_arg6)) := by
  rw [ops1_split, after_append, after_append, after_append, after_append]
  rw [e_v97, d_v82, d_v54, d_v57, d_v50, d_arg6, c_v66, c_v54, c_v57, c_v59, c_v50, c_arg6,
    b_v64, b_v65, b_cst_12, b_v54, b_v57, b_v59, b_v50, b_arg6, a_v49, a_arg1, a_arg2, a_arg5, a_arg6]
  rfl

/-! ## The arguments pass through the window -/

set_option maxHeartbeats 2000000 in
theorem r1_arg0 (W : Valuation τ sig (Elt Ideal)) :
    after (ops1 (F := Ideal)) W (Proc.devRef .tc main_arg0) = W (Proc.devRef .tc main_arg0) := by
  after_results_simp

set_option maxHeartbeats 2000000 in
theorem r1_arg1 (W : Valuation τ sig (Elt Ideal)) :
    after (ops1 (F := Ideal)) W (Proc.devRef .tc main_arg1) = W (Proc.devRef .tc main_arg1) := by
  after_results_simp

set_option maxHeartbeats 2000000 in
theorem r1_arg2 (W : Valuation τ sig (Elt Ideal)) :
    after (ops1 (F := Ideal)) W (Proc.devRef .tc main_arg2) = W (Proc.devRef .tc main_arg2) := by
  after_results_simp

set_option maxHeartbeats 2000000 in
theorem r1_arg3 (W : Valuation τ sig (Elt Ideal)) :
    after (ops1 (F := Ideal)) W (Proc.devRef .tc main_arg3) = W (Proc.devRef .tc main_arg3) := by
  after_results_simp

set_option maxHeartbeats 2000000 in
theorem r1_arg4 (W : Valuation τ sig (Elt Ideal)) :
    after (ops1 (F := Ideal)) W (Proc.devRef .tc main_arg4) = W (Proc.devRef .tc main_arg4) := by
  after_results_simp

set_option maxHeartbeats 2000000 in
theorem r1_arg5 (W : Valuation τ sig (Elt Ideal)) :
    after (ops1 (F := Ideal)) W (Proc.devRef .tc main_arg5) = W (Proc.devRef .tc main_arg5) := by
  after_results_simp

set_option maxHeartbeats 2000000 in
theorem r1_arg6 (W : Valuation τ sig (Elt Ideal)) :
    after (ops1 (F := Ideal)) W (Proc.devRef .tc main_arg6) = W (Proc.devRef .tc main_arg6) := by
  after_results_simp

end Cert.ReferenceIdeal.Hand

end
-- ==== Proof.RRead2.lean ====
/-
  The reference's last window read for an arbitrary valuation: the output is the printed sigmoid of what the second
  window left, and the embedding and the arguments pass through.
-/
import proofs.«128740_j1786706395262_2_alg».proof.Proof.ROps2
import proofs.«128740_j1786706395262_2_alg».proof.Proof.Spec
import proofs.«128740_j1786706395262_2_alg».proof.Proof.Bridge

noncomputable section

namespace Cert.ReferenceIdeal.Hand

open Cert.ReferenceIdeal Cert.ReferenceIdeal.Gen Idealize.ShloMosaic Idealize.ShloMosaic.TcCoe Idealize.SL.Sem Idealize.ShloMosaic.StableHlo

/-- The output is the printed sigmoid of the second window's last value. -/
theorem r2_v103 (W : Valuation τ sig (Elt Ideal)) :
    after (ops2 (F := Ideal)) W (Proc.devRef .tc main_v103) = Cert.Gcn.sigRef (W (Proc.devRef .tc main_v97)) := by
  after_results_simp
  rfl

/-- The embedding passes through the window. -/
theorem r2_v49 (W : Valuation τ sig (Elt Ideal)) :
    after (ops2 (F := Ideal)) W (Proc.devRef .tc main_v49) = W (Proc.devRef .tc main_v49) := by
  after_results_simp

/-! ## The arguments pass through the window -/

theorem r2_arg0 (W : Valuation τ sig (Elt Ideal)) :
    after (ops2 (F := Ideal)) W (Proc.devRef .tc main_arg0) = W (Proc.devRef .tc main_arg0) := by
  after_results_simp

theorem r2_arg1 (W : Valuation τ sig (Elt Ideal)) :
    after (ops2 (F := Ideal)) W (Proc.devRef .tc main_arg1) = W (Proc.devRef .tc main_arg1) := by
  after_results_simp

theorem r2_arg2 (W : Valuation τ sig (Elt Ideal)) :
    after (ops2 (F := Ideal)) W (Proc.devRef .tc main_arg2) = W (Proc.devRef .tc main_arg2) := by
  after_results_simp

theorem r2_arg3 (W : Valuation τ sig (Elt Ideal)) :
    after (ops2 (F := Ideal)) W (Proc.devRef .tc main_arg3) = W (Proc.devRef .tc main_arg3) := by
  after_results_simp

theorem r2_arg4 (W : Valuation τ sig (Elt Ideal)) :
    after (ops2 (F := Ideal)) W (Proc.devRef .tc main_arg4) = W (Proc.devRef .tc main_arg4) := by
  after_results_simp

theorem r2_arg5 (W : Valuation τ sig (Elt Ideal)) :
    after (ops2 (F := Ideal)) W (Proc.devRef .tc main_arg5) = W (Proc.devRef .tc main_arg5) := by
  after_results_simp

theorem r2_arg6 (W : Valuation τ sig (Elt Ideal)) :
    after (ops2 (F := Ideal)) W (Proc.devRef .tc main_arg6) = W (Proc.devRef .tc main_arg6) := by
  after_results_simp

end Cert.ReferenceIdeal.Hand

end
-- ==== Proof.RValue.lean ====
/-
  The reference program's value: after its three windows, for an arbitrary valuation, the embedding buffer holds the
  specification's EMB of the arguments and the output buffer its OUT, and the arguments are not written. Each window's
  read is chained with the laws that join the reference's spellings to the specification's functions: the first
  window leaves the aggregation of x · W1 plus the bias, the second takes its elu (the embedding) and leaves the
  aggregation of emb · W2 plus the bias, the third takes its sigmoid.
-/
import proofs.«128740_j1786706395262_2_alg».proof.Proof.Bridge
import proofs.«128740_j1786706395262_2_alg».proof.Proof.RRead0
import proofs.«128740_j1786706395262_2_alg».proof.Proof.RRead1
import proofs.«128740_j1786706395262_2_alg».proof.Proof.RRead2

noncomputable section

namespace Cert.ReferenceIdeal.Hand

open Idealize.ShloMosaic Idealize.ShloMosaic.TcCoe Idealize.SL.Sem Idealize.ShloMosaic.StableHlo Cert.ReferenceIdeal

/-- The value the first window leaves for the embedding's activation: the aggregation of x · W1 plus the bias. -/
theorem v48_eq (V : Valuation τ sig (Elt Ideal)) :
    after ops0 V (Proc.devRef .tc main_v48)
      = Cert.Gcn.addBias128 (Cert.Gcn.agg128 (V (Proc.devRef .tc main_arg1)) (V (Proc.devRef .tc main_arg2))
          (Cert.Gcn.lin (V (Proc.devRef .tc main_arg0)) (V (Proc.devRef .tc main_arg3)))) (V (Proc.devRef .tc main_arg4)) := by
  rw [r0_v48, Cert.Gcn.dot1_eq]

/-- The embedding after the first two windows. -/
theorem v49_eq (V : Valuation τ sig (Elt Ideal)) :
    after ops1 (after ops0 V) (Proc.devRef .tc main_v49)
      = Cert.Gcn.EMB (V (Proc.devRef .tc main_arg0)) (V (Proc.devRef .tc main_arg1)) (V (Proc.devRef .tc main_arg2))
          (V (Proc.devRef .tc main_arg3)) (V (Proc.devRef .tc main_arg4)) := by
  rw [r1_v49, v48_eq]
  exact Cert.Gcn.embOf_ref _ _

/-- The reference's embedding is the specification's. -/
theorem emb_eq (V : Valuation τ sig (Elt Ideal)) :
    after ops2 (after ops1 (after ops0 V)) (Proc.devRef .tc main_v49)
      = Cert.Gcn.EMB (V (Proc.devRef .tc main_arg0)) (V (Proc.devRef .tc main_arg1)) (V (Proc.devRef .tc main_arg2))
          (V (Proc.devRef .tc main_arg3)) (V (Proc.devRef .tc main_arg4)) := by
  rw [r2_v49, v49_eq]

/-- The value the second window leaves for the output's activation: the aggregation of emb · W2 plus the bias. -/
theorem v97_eq (V : Valuation τ sig (Elt Ideal)) :
    after ops1 (after ops0 V) (Proc.devRef .tc main_v97)
      = Cert.Gcn.addBias1 (Cert.Gcn.agg1 (V (Proc.devRef .tc main_arg1)) (V (Proc.devRef .tc main_arg2))
          (Cert.Gcn.projOf (Cert.Gcn.EMB (V (Proc.devRef .tc main_arg0)) (V (Proc.devRef .tc main_arg1)) (V (Proc.devRef .tc main_arg2))
            (V (Proc.devRef .tc main_arg3)) (V (Proc.devRef .tc main_arg4))) (V (Proc.devRef .tc main_arg5)))) (V (Proc.devRef .tc main_arg6)) := by
  rw [r1_v97, r0_arg1, r0_arg2, r0_arg5, r0_arg6, Cert.Gcn.dot2_eq, v48_eq, Cert.Gcn.embOf_ref]
  rfl

/-- The reference's output is the specification's. -/
theorem out_eq (V : Valuation τ sig (Elt Ideal)) :
    after ops2 (after ops1 (after ops0 V)) (Proc.devRef .tc main_v103)
      = Cert.Gcn.OUT (V (Proc.devRef .tc main_arg0)) (V (Proc.devRef .tc main_arg1)) (V (Proc.devRef .tc main_arg2))
          (V (Proc.devRef .tc main_arg3)) (V (Proc.devRef .tc main_arg4)) (V (Proc.devRef .tc main_arg5)) (V (Proc.devRef .tc main_arg6)) := by
  rw [r2_v103, v97_eq]
  exact Cert.Gcn.sigOf_ref _ _

/-! ## The arguments are not written -/

theorem arg0_eq (V : Valuation τ sig (Elt Ideal)) :
    after ops2 (after ops1 (after ops0 V)) (Proc.devRef .tc main_arg0) = V (Proc.devRef .tc main_arg0) := by
  rw [r2_arg0, r1_arg0, r0_arg0]

theorem arg1_eq (V : Valuation τ sig (Elt Ideal)) :
    after ops2 (after ops1 (after ops0 V)) (Proc.devRef .tc main_arg1) = V (Proc.devRef .tc main_arg1) := by
  rw [r2_arg1, r1_arg1, r0_arg1]

theorem arg2_eq (V : Valuation τ sig (Elt Ideal)) :
    after ops2 (after ops1 (after ops0 V)) (Proc.devRef .tc main_arg2) = V (Proc.devRef .tc main_arg2) := by
  rw [r2_arg2, r1_arg2, r0_arg2]

theorem arg3_eq (V : Valuation τ sig (Elt Ideal)) :
    after ops2 (after ops1 (after ops0 V)) (Proc.devRef .tc main_arg3) = V (Proc.devRef .tc main_arg3) := by
  rw [r2_arg3, r1_arg3, r0_arg3]

theorem arg4_eq (V : Valuation τ sig (Elt Ideal)) :
    after ops2 (after ops1 (after ops0 V)) (Proc.devRef .tc main_arg4) = V (Proc.devRef .tc main_arg4) := by
  rw [r2_arg4, r1_arg4, r0_arg4]

theorem arg5_eq (V : Valuation τ sig (Elt Ideal)) :
    after ops2 (after ops1 (after ops0 V)) (Proc.devRef .tc main_arg5) = V (Proc.devRef .tc main_arg5) := by
  rw [r2_arg5, r1_arg5, r0_arg5]

theorem arg6_eq (V : Valuation τ sig (Elt Ideal)) :
    after ops2 (after ops1 (after ops0 V)) (Proc.devRef .tc main_arg6) = V (Proc.devRef .tc main_arg6) := by
  rw [r2_arg6, r1_arg6, r0_arg6]

end Cert.ReferenceIdeal.Hand

end
-- ==== Proof.lean ====
/-
  A two-layer graph convolution (self-loops, symmetric normalisation; elu after the first layer, sigmoid after the
  second) computed by a program of three kernels with the gathers and segment sums on the host, against the plain
  array reference. On the extended reals both end with the same two arrays:
    embedding = elu (agg (x · W1) + b1),   output = sigmoid (agg (embedding · W2) + b2),
  where agg sums, into each node, the features of the sources of its incoming edges times the edge coefficients.
  The edge bookkeeping is the same sequence of array operations in both programs and is never opened. What differs:
  the kernel forms x · W1 block of rows by block of rows where the reference forms it whole (the same sums, entry by
  entry); it writes elu as select (v > 0) v (e^v − 1) where the reference writes select (v > 0) v (1 · expm1 (select
  (v > 0) 0 v)) (equal since 1 · y = y and the inner select is v where it is read); it projects onto W2's one column
  by a row sum where the reference uses a matrix product (the same sum); and it writes the sigmoid's −v as 0 − v.
  None of these laws needs a finite operand, so the precondition is never opened.
  The kernel's frames are the generated ones; the reference's run is read off its operations' list; the kernel's
  idealization rewrote no operation, so there is nothing to preserve.
-/
import proofs.«128740_j1786706395262_2_alg».proof.Defs
import proofs.«128740_j1786706395262_2_alg».proof.Proof.Gen.Kernel
import proofs.«128740_j1786706395262_2_alg».proof.Proof.Gen.Kernel.Frame
import proofs.«128740_j1786706395262_2_alg».proof.Proof.Gen.KernelIdeal
import proofs.«128740_j1786706395262_2_alg».proof.Proof.Gen.KernelIdeal.Frame
import proofs.«128740_j1786706395262_2_alg».proof.Proof.Gen.ReferenceIdeal
import proofs.«128740_j1786706395262_2_alg».proof.Proof.Gen.Pre_finite_inputs
import proofs.«128740_j1786706395262_2_alg».proof.Proof.KValue
import proofs.«128740_j1786706395262_2_alg».proof.Proof.RRun
import proofs.«128740_j1786706395262_2_alg».proof.Proof.RValue
import Idealize.ShloMosaic.Adequacy
import Idealize.ShloMosaic.Init

noncomputable section

namespace Cert.Proof

open Idealize.ShloMosaic Idealize.ShloMosaic.TcCoe Idealize.SL.Sem Idealize.ShloMosaic.StableHlo

open Cert.KernelIdeal in
/-- The output is a function of the seven arguments. -/
theorem OUT_congr {x x' : FVec Ideal S100000x128 .f32} {ei ei' : IVec S2x1600000 32} {ew ew' : FVec Ideal S1600000 .f32}
    {w1 w1' : FVec Ideal S128x128 .f32} {b1 b1' : FVec Ideal S128 .f32} {w2 w2' : FVec Ideal S128x1 .f32} {b2 b2' : FVec Ideal S1 .f32}
    (h0 : x = x') (h1 : ei = ei') (h2 : ew = ew') (h3 : w1 = w1') (h4 : b1 = b1') (h5 : w2 = w2') (h6 : b2 = b2') :
    Cert.Gcn.OUT x ei ew w1 b1 w2 b2 = Cert.Gcn.OUT x' ei' ew' w1' b1' w2' b2' := by
  rw [h0, h1, h2, h3, h4, h5, h6]

open Cert.KernelIdeal in
/-- The embedding is a function of the first five. -/
theorem EMB_congr {x x' : FVec Ideal S100000x128 .f32} {ei ei' : IVec S2x1600000 32} {ew ew' : FVec Ideal S1600000 .f32}
    {w1 w1' : FVec Ideal S128x128 .f32} {b1 b1' : FVec Ideal S128 .f32}
    (h0 : x = x') (h1 : ei = ei') (h2 : ew = ew') (h3 : w1 = w1') (h4 : b1 = b1') :
    Cert.Gcn.EMB x ei ew w1 b1 = Cert.Gcn.EMB x' ei' ew' w1' b1' := by
  rw [h0, h1, h2, h3, h4]

/-- The kernel as printed runs and leaves its arguments alone. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments alone: no operation of its list writes an argument. -/
theorem frame_referenceIdeal : Cert.frame_ReferenceIdeal := fun m ρ _ =>
  (θ_run Cert.ReferenceIdeal.defs _ _).mono
    (fun _ h c => ⟨(h c Cert.ReferenceIdeal.main_arg0).trans (Cert.ReferenceIdeal.Hand.arg0_eq _),
      (h c Cert.ReferenceIdeal.main_arg1).trans (Cert.ReferenceIdeal.Hand.arg1_eq _),
      (h c Cert.ReferenceIdeal.main_arg2).trans (Cert.ReferenceIdeal.Hand.arg2_eq _),
      (h c Cert.ReferenceIdeal.main_arg3).trans (Cert.ReferenceIdeal.Hand.arg3_eq _),
      (h c Cert.ReferenceIdeal.main_arg4).trans (Cert.ReferenceIdeal.Hand.arg4_eq _),
      (h c Cert.ReferenceIdeal.main_arg5).trans (Cert.ReferenceIdeal.Hand.arg5_eq _),
      (h c Cert.ReferenceIdeal.main_arg6).trans (Cert.ReferenceIdeal.Hand.arg6_eq _)⟩)
    (Cert.ReferenceIdeal.Hand.run (F := Ideal) m ρ)

/-- The idealization rewrote no operation. -/
theorem preserves : Cert.preserves_Kernel_KernelIdeal := trivial

/-- From memories agreeing on the arguments both programs end with the output at sigmoid (agg (emb · W2) + b2) and
    the embedding at elu (agg (x · W1) + b1) of those arguments. -/
theorem algebraic : Cert.algebraic_KernelIdeal_ReferenceIdeal := by
  intro m ρ m' ρ' _ hagree
  refine ⟨fun c => Cert.Gcn.OUT (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Gcn.EMB (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Gen.run_main (F := Ideal) m ρ)
    obtain ⟨hout, hemb, hargs⟩ := h c
    exact ⟨hout.trans (Cert.KernelIdeal.Value.out_eq m ρ c), hemb.trans (Cert.KernelIdeal.Value.emb_eq m ρ c), hargs⟩
  · refine (θ_run Cert.ReferenceIdeal.defs _ _).mono (fun r h c => ?_) (Cert.ReferenceIdeal.Hand.run (F := Ideal) m' ρ')
    obtain ⟨e0, e1, e2, e3, e4, e5, e6⟩ := hagree c
    refine ⟨(h c Cert.ReferenceIdeal.main_v103).trans ((Cert.ReferenceIdeal.Hand.out_eq _).trans ?_),
      (h c Cert.ReferenceIdeal.main_v49).trans ((Cert.ReferenceIdeal.Hand.emb_eq _).trans ?_),
      (h c Cert.ReferenceIdeal.main_arg0).trans (Cert.ReferenceIdeal.Hand.arg0_eq _),
      (h c Cert.ReferenceIdeal.main_arg1).trans (Cert.ReferenceIdeal.Hand.arg1_eq _),
      (h c Cert.ReferenceIdeal.main_arg2).trans (Cert.ReferenceIdeal.Hand.arg2_eq _),
      (h c Cert.ReferenceIdeal.main_arg3).trans (Cert.ReferenceIdeal.Hand.arg3_eq _),
      (h c Cert.ReferenceIdeal.main_arg4).trans (Cert.ReferenceIdeal.Hand.arg4_eq _),
      (h c Cert.ReferenceIdeal.main_arg5).trans (Cert.ReferenceIdeal.Hand.arg5_eq _),
      (h c Cert.ReferenceIdeal.main_arg6).trans (Cert.ReferenceIdeal.Hand.arg6_eq _)⟩
    · exact OUT_congr e0 e1 e2 e3 e4 e5 e6
    · exact EMB_congr e0 e1 e2 e3 e4

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
